-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S256x256 : Shape := ⟨2, ![256, 256]⟩
abbrev S256 : Shape := ⟨1, ![256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S64x512x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S64x512x256 : Shape := ⟨3, ![64, 512, 256]⟩
abbrev S256x256 : Shape := ⟨2, ![256, 256]⟩
abbrev S256 : Shape := ⟨1, ![256]⟩
abbrev S32768x256 : Shape := ⟨2, ![32768, 256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩
abbrev S64x64x256 : Shape := ⟨3, ![64, 64, 256]⟩
abbrev S64x128x256 : Shape := ⟨3, ![64, 128, 256]⟩
abbrev S64x64x128 : Shape := ⟨3, ![64, 64, 128]⟩
abbrev S64x128 : Shape := ⟨2, ![64, 128]⟩
abbrev S1x64x128 : Shape := ⟨3, ![1, 64, 128]⟩

abbrev nBuf : Space → Nat
  | .hbm => 21
  | .vmem => 23
  | .smem => 0
  | _ => 0

abbrev bufTy : (tb : Table) → Fin (tcTables nBuf tb) → BufTy
  | .hbm, ⟨0, _⟩ => ⟨S64x512x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S32768x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S64x512x256, .f32⟩
  | .hbm, ⟨18, _⟩ => ⟨S64x512x256, .f32⟩
  | .hbm, ⟨19, _⟩ => ⟨S64x512x256, .f32⟩
  | .hbm, ⟨20, _⟩ => ⟨S64x512x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S64x64x256, .f32⟩
  | .local _ .vmem, ⟨15, _⟩ => ⟨S64x64x256, .f32⟩
  | .local _ .vmem, ⟨16, _⟩ => ⟨S64x128x256, .f32⟩
  | .local _ .vmem, ⟨17, _⟩ => ⟨S64x128x256, .f32⟩
  | .local _ .vmem, ⟨18, _⟩ => ⟨S64x128x256, .f32⟩
  | .local _ .vmem, ⟨19, _⟩ => ⟨S64x128x256, .f32⟩
  | .local _ .vmem, ⟨20, _⟩ => ⟨S64x64x256, .f32⟩
  | .local _ .vmem, ⟨21, _⟩ => ⟨S64x64x256, .f32⟩
  | .local _ .vmem, ⟨22, _⟩ => ⟨S64x64x256, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S64x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S64x512x256_S32768x256 : S64x512x256.ShapeCasts S32768x256
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  shapeCasts_S32768x256_S64x512x256 : S32768x256.ShapeCasts S64x512x256
  inb_S64x64x256_S64x64x256_0_0_0 : ∀ a, (![0, 0, 0] : Fin 3 → Nat) a + S64x64x256.size a ≤ S64x64x256.size a
  h_S64x64x256 : 0 < S64x64x256.numel
  shapeCasts_S64x64x256_S64x64x256 : S64x64x256.ShapeCasts S64x64x256
  inb_S64x128x256_S64x128x256_0_0_0 : ∀ a, (![0, 0, 0] : Fin 3 → Nat) a + S64x128x256.size a ≤ S64x128x256.size a
  h_S64x128x256 : 0 < S64x128x256.numel
  shapeCasts_S64x128x256_S64x128x256 : S64x128x256.ShapeCasts S64x128x256
  reduces_S64x64x128_S64x128 : S64x64x128.Reduces [0] S64x128
  shapeCasts_S64x128_S1x64x128 : S64x128.ShapeCasts S1x64x128
  broadcasts_S1x64x128_S64x64x128 : S1x64x128.Broadcasts S64x64x128
  dot_S2048x256_S256x256_S2048x256_1_0_0_1_n_n_wf : DotDims.WF S2048x256 S256x256 S2048x256 [1] [0] [0] [1] [] []
  dot_S64x64x256_S64x128x256_S64x64x128_2_2_1_1_0_0_wf : DotDims.WF S64x64x256 S64x128x256 S64x64x128 [2] [2] [1] [1] [0] [0]
  dot_S64x64x128_S64x128x256_S64x64x256_2_1_1_2_0_0_wf : DotDims.WF S64x64x128 S64x128x256 S64x64x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S32768x256.size a
  hwx0_7 : ∀ i : grid0.Coords, EltTy.bits .f32 = 32 ∨ (Rect.block (s := S32768x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S32768x256.size a
  hwx0_8 : ∀ i : grid0.Coords, EltTy.bits .f32 = 32 ∨ (Rect.block (s := S32768x256) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S32768x256.size a
  hwx0_9 : ∀ i : grid0.Coords, EltTy.bits .f32 = 32 ∨ (Rect.block (s := S32768x256) S2048x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x64x256.size a ≤ S64x512x256.size a
  hwx1_0 : ∀ i : grid1.Coords, EltTy.bits .f32 = 32 ∨ (Rect.block (s := S64x512x256) S64x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128x256.size a ≤ S64x512x256.size a
  hwx1_1 : ∀ i : grid1.Coords, EltTy.bits .f32 = 32 ∨ (Rect.block (s := S64x512x256) S64x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128x256.size a ≤ S64x512x256.size a
  hwx1_2 : ∀ i : grid1.Coords, EltTy.bits .f32 = 32 ∨ (Rect.block (s := S64x512x256) S64x128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x64x256.size a ≤ S64x512x256.size a
  hwx1_3 : ∀ i : grid1.Coords, EltTy.bits .f32 = 32 ∨ (Rect.block (s := S64x512x256) S64x64x256.size (cc1_transform_3 i) (hinb1_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S64x64x256_S64x128x256_S64x64x128_2_2_1_1_0_0 : DotDims S64x64x256 S64x128x256 S64x64x128 where
  lhsContracting := [2]
  rhsContracting := [2]
  lhsNonContracting := [1]
  rhsNonContracting := [1]
  lhsBatch := [0]
  rhsBatch := [0]
  wf := dot_S64x64x256_S64x128x256_S64x64x128_2_2_1_1_0_0_wf
def dot_S64x64x128_S64x128x256_S64x64x256_2_1_1_2_0_0 : DotDims S64x64x128 S64x128x256 S64x64x256 where
  lhsContracting := [2]
  rhsContracting := [1]
  lhsNonContracting := [1]
  rhsNonContracting := [2]
  lhsBatch := [0]
  rhsBatch := [0]
  wf := dot_S64x64x128_S64x128x256_S64x64x256_2_1_1_2_0_0_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S2048x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S64x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S64x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S64x128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S64x64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x512x256 : Shape := ⟨3, ![64, 512, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S64x512 : Shape := ⟨2, ![64, 512]⟩
abbrev S64x512x1 : Shape := ⟨3, ![64, 512, 1]⟩
abbrev S64x512x512 : Shape := ⟨3, ![64, 512, 512]⟩
abbrev S512x512 : Shape := ⟨2, ![512, 512]⟩
abbrev S1x512x512 : Shape := ⟨3, ![1, 512, 512]⟩

abbrev nBuf : Space → Nat
  | .hbm => 107
  | .vmem => 0
  | .smem => 0
  | _ => 0

abbrev bufTy : (tb : Table) → Fin (tcTables nBuf tb) → BufTy
  | .hbm, ⟨0, _⟩ => ⟨S64x512x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S64x512x256, .f32⟩
  | .hbm, ⟨8, _⟩ => ⟨S1x1x256, .f32⟩
  | .hbm, ⟨9, _⟩ => ⟨S64x512x256, .f32⟩
  | .hbm, ⟨10, _⟩ => ⟨S64x512x256, .f32⟩
  | .hbm, ⟨11, _⟩ => ⟨S_, .f32⟩
  | .hbm, ⟨12, _⟩ => ⟨S64x512, .f32⟩
  | .hbm, ⟨13, _⟩ => ⟨S64x512x1, .f32⟩
  | .hbm, ⟨14, _⟩ => ⟨S_, .f32⟩
  | .hbm, ⟨15, _⟩ => ⟨S64x512x1, .f32⟩
  | .hbm, ⟨16, _⟩ => ⟨S64x512x1, .f32⟩
  | .hbm, ⟨17, _⟩ => ⟨S64x512x256, .f32⟩
  | .hbm, ⟨18, _⟩ => ⟨S64x512x256, .f32⟩
  | .hbm, ⟨19, _⟩ => ⟨S64x512x256, .f32⟩
  | .hbm, ⟨20, _⟩ => ⟨S_, .f32⟩
  | .hbm, ⟨21, _⟩ => ⟨S64x512, .f32⟩
  | .hbm, ⟨22, _⟩ => ⟨S64x512x1, .f32⟩
  | .hbm, ⟨23, _⟩ => ⟨S_, .f32⟩
  | .hbm, ⟨24, _⟩ => ⟨S64x512x1, .f32⟩
  | .hbm, ⟨25, _⟩ => ⟨S64x512x1, .f32⟩
  | .hbm, ⟨26, _⟩ => ⟨S64x512x256, .f32⟩
  | .hbm, ⟨27, _⟩ => ⟨S64x512x256, .f32⟩
  | .hbm, ⟨28, _⟩ => ⟨S_, .f32⟩
  | .hbm, ⟨29, _⟩ => ⟨S64x512x1, .f32⟩
  | .hbm, ⟨30, _⟩ => ⟨S64x512x1, .f32⟩
  | .hbm, ⟨31, _⟩ => ⟨S64x512x1, .f32⟩
  | .hbm, ⟨32, _⟩ => ⟨S64x512x256, .f32⟩
  | .hbm, ⟨33, _⟩ => ⟨S64x512x256, .f32⟩
  | .hbm, ⟨34, _⟩ => ⟨S64x512x256, .f32⟩
  | .hbm, ⟨35, _⟩ => ⟨S1x1x256, .f32⟩
  | .hbm, ⟨36, _⟩ => ⟨S64x512x256, .f32⟩
  | .hbm, ⟨37, _⟩ => ⟨S64x512x256, .f32⟩
  | .hbm, ⟨38, _⟩ => ⟨S_, .f32⟩
  | .hbm, ⟨39, _⟩ => ⟨S64x512, .f32⟩
  | .hbm, ⟨40, _⟩ => ⟨S64x512x1, .f32⟩
  | .hbm, ⟨41, _⟩ => ⟨S_, .f32⟩
  | .hbm, ⟨42, _⟩ => ⟨S64x512x1, .f32⟩
  | .hbm, ⟨43, _⟩ => ⟨S64x512x1, .f32⟩
  | .hbm, ⟨44, _⟩ => ⟨S64x512x256, .f32⟩
  | .hbm, ⟨45, _⟩ => ⟨S64x512x256, .f32⟩
  | .hbm, ⟨46, _⟩ => ⟨S64x512x256, .f32⟩
  | .hbm, ⟨47, _⟩ => ⟨S_, .f32⟩
  | .hbm, ⟨48, _⟩ => ⟨S64x512, .f32⟩
  | .hbm, ⟨49, _⟩ => ⟨S64x512x1, .f32⟩
  | .hbm, ⟨50, _⟩ => ⟨S_, .f32⟩
  | .hbm, ⟨51, _⟩ => ⟨S64x512x1, .f32⟩
  | .hbm, ⟨52, _⟩ => ⟨S64x512x1, .f32⟩
  | .hbm, ⟨53, _⟩ => ⟨S64x512x256, .f32⟩
  | .hbm, ⟨54, _⟩ => ⟨S64x512x256, .f32⟩
  | .hbm, ⟨55, _⟩ => ⟨S_, .f32⟩
  | .hbm, ⟨56, _⟩ => ⟨S64x512x1, .f32⟩
  | .hbm, ⟨57, _⟩ => ⟨S64x512x1, .f32⟩
  | .hbm, ⟨58, _⟩ => ⟨S64x512x1, .f32⟩
  | .hbm, ⟨59, _⟩ => ⟨S64x512x256, .f32⟩
  | .hbm, ⟨60, _⟩ => ⟨S64x512x256, .f32⟩
  | .hbm, ⟨61, _⟩ => ⟨S64x512x256, .f32⟩
  | .hbm, ⟨62, _⟩ => ⟨S1x1x256, .f32⟩
  | .hbm, ⟨63, _⟩ => ⟨S64x512x256, .f32⟩
  | .hbm, ⟨64, _⟩ => ⟨S64x512x256, .f32⟩
  | .hbm, ⟨65, _⟩ => ⟨S_, .f32⟩
  | .hbm, ⟨66, _⟩ => ⟨S64x512, .f32⟩
  | .hbm, ⟨67, _⟩ => ⟨S64x512x1, .f32⟩
  | .hbm, ⟨68, _⟩ => ⟨S_, .f32⟩
  | .hbm, ⟨69, _⟩ => ⟨S64x512x1, .f32⟩
  | .hbm, ⟨70, _⟩ => ⟨S64x512x1, .f32⟩
  | .hbm, ⟨71, _⟩ => ⟨S64x512x256, .f32⟩
  | .hbm, ⟨72, _⟩ => ⟨S64x512x256, .f32⟩
  | .hbm, ⟨73, _⟩ => ⟨S64x512x256, .f32⟩
  | .hbm, ⟨74, _⟩ => ⟨S_, .f32⟩
  | .hbm, ⟨75, _⟩ => ⟨S64x512, .f32⟩
  | .hbm, ⟨76, _⟩ => ⟨S64x512x1, .f32⟩
  | .hbm, ⟨77, _⟩ => ⟨S_, .f32⟩
  | .hbm, ⟨78, _⟩ => ⟨S64x512x1, .f32⟩
  | .hbm, ⟨79, _⟩ => ⟨S64x512x1, .f32⟩
  | .hbm, ⟨80, _⟩ => ⟨S64x512x256, .f32⟩
  | .hbm, ⟨81, _⟩ => ⟨S64x512x256, .f32⟩
  | .hbm, ⟨82, _⟩ => ⟨S_, .f32⟩
  | .hbm, ⟨83, _⟩ => ⟨S64x512x1, .f32⟩
  | .hbm, ⟨84, _⟩ => ⟨S64x512x1, .f32⟩
  | .hbm, ⟨85, _⟩ => ⟨S64x512x1, .f32⟩
  | .hbm, ⟨86, _⟩ => ⟨S64x512x256, .f32⟩
  | .hbm, ⟨87, _⟩ => ⟨S64x512x256, .f32⟩
  | .hbm, ⟨88, _⟩ => ⟨S64x512x512, .f32⟩
  | .hbm, ⟨89, _⟩ => ⟨S_, .f32⟩
  | .hbm, ⟨90, _⟩ => ⟨S64x512x512, .f32⟩
  | .hbm, ⟨91, _⟩ => ⟨S64x512x512, .f32⟩
  | .hbm, ⟨92, _⟩ => ⟨S_, .f32⟩
  | .hbm, ⟨93, _⟩ => ⟨S512x512, .f32⟩
  | .hbm, ⟨94, _⟩ => ⟨S_, .f32⟩
  | .hbm, ⟨95, _⟩ => ⟨S512x512, .f32⟩
  | .hbm, ⟨96, _⟩ => ⟨S512x512, .f32⟩
  | .hbm, ⟨97, _⟩ => ⟨S1x512x512, .f32⟩
  | .hbm, ⟨98, _⟩ => ⟨S64x512x512, .f32⟩
  | .hbm, ⟨99, _⟩ => ⟨S64x512x512, .f32⟩
  | .hbm, ⟨100, _⟩ => ⟨S64x512x512, .f32⟩
  | .hbm, ⟨101, _⟩ => ⟨S_, .f32⟩
  | .hbm, ⟨102, _⟩ => ⟨S512x512, .f32⟩
  | .hbm, ⟨103, _⟩ => ⟨S1x512x512, .f32⟩
  | .hbm, ⟨104, _⟩ => ⟨S64x512x512, .f32⟩
  | .hbm, ⟨105, _⟩ => ⟨S64x512x512, .f32⟩
  | .hbm, ⟨106, _⟩ => ⟨S64x512x256, .f32⟩
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  reducesTo_S64x512x256_S64x512_d2 : S64x512x256.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x256_0_1_2 : S64x512x1.BroadcastsInDim S64x512x256 (![0, 1, 2] : Fin 3 → Fin S64x512x256.rank)
  bcast_S_S64x512x512 : S_.BroadcastsInDim S64x512x512 (![] : Fin 0 → Fin S64x512x512.rank)
  reducesTo_S64x512x512_S512x512_d0 : S64x512x512.ReducesTo [0] S512x512
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  dot_S64x512x256_S256x256_S64x512x256_2_1_01_0_n_n_wf : DotDims.WF S64x512x256 S256x256 S64x512x256 [2] [1] [0, 1] [0] [] []
  dot_S64x512x256_S64x512x256_S64x512x512_2_2_1_1_0_0_wf : DotDims.WF S64x512x256 S64x512x256 S64x512x512 [2] [2] [1] [1] [0] [0]
  dot_S64x512x512_S64x512x256_S64x512x256_2_1_1_2_0_0_wf : DotDims.WF S64x512x512 S64x512x256 S64x512x256 [2] [1] [1] [2] [0] [0]

variable [Facts₀]

def dot_S64x512x256_S256x256_S64x512x256_2_1_01_0_n_n : DotDims S64x512x256 S256x256 S64x512x256 where
  lhsContracting := [2]
  rhsContracting := [1]
  lhsNonContracting := [0, 1]
  rhsNonContracting := [0]
  lhsBatch := []
  rhsBatch := []
  wf := dot_S64x512x256_S256x256_S64x512x256_2_1_01_0_n_n_wf
def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf
def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf

class Facts : Prop extends Facts₀ where

variable [Facts]
-- ==== Proof.Body0.lean ====
/-
  The first region (the three normalised projections), at the contents V the region finds in the
  TensorCore's buffers: each window's block at a grid point, what the body leaves in the three output
  blocks, the proof data of the pipeline and the body's obligation at every point. Stated at any float
  instance.
-/
import proofs.«102405_j6794638262727_1_alg».proof.Proof.Gen.KernelIdeal.Launch
import proofs.«102405_j6794638262727_1_alg».proof.Proof.Gen.KernelIdeal.Skeleton
import proofs.«102405_j6794638262727_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows hold their blocks -/

/-- Input window 0's current buffer holds its block at every point, fetched there or not: an unfetched
    window's block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not: an unfetched
    window's block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not: an unfetched
    window's block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not: an unfetched
    window's block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not: an unfetched
    window's block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not: an unfetched
    window's block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current buffer holds its block at every point, fetched there or not: an unfetched
    window's block index has not moved, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_x : Rect S2048x256 := Rect.unit (s := S2048x256) ![0, 0] S2048x256.size inb_S2048x256_S2048x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0

/-! ## What the body leaves in each output block -/

/-- The first output block after the body: its one store, of the normalised projection of the row block by the first
    matrix and bias. -/
def out0_7 (x0 : Vec F S2048x256 .f32) (x1 : Vec F S256x256 .f32) (x2 : Vec F S1x256 .f32) : Vec F S2048x256 .f32 :=
  View.canon [⟨r0_x, k0_pay8 (k0_pay3 (View.ld x0 r0_x) (View.ld x1 r0_w) (View.ld x2 r0_b)) (k0_pay6 (View.ld x0 r0_x) (View.ld x1 r0_w) (View.ld x2 r0_b)) (k0_pay7 (View.ld x0 r0_x) (View.ld x1 r0_w) (View.ld x2 r0_b))⟩]

/-- The second output block after the body: its one store, by the second matrix and bias. -/
def out0_8 (x0 : Vec F S2048x256 .f32) (x3 : Vec F S256x256 .f32) (x4 : Vec F S1x256 .f32) : Vec F S2048x256 .f32 :=
  View.canon [⟨r0_x, k0_pay9 (k0_pay4 (View.ld x0 r0_x) (View.ld x3 r0_w) (View.ld x4 r0_b))⟩]

/-- The third output block after the body: its one store, by the third matrix and bias. -/
def out0_9 (x0 : Vec F S2048x256 .f32) (x5 : Vec F S256x256 .f32) (x6 : Vec F S1x256 .f32) : Vec F S2048x256 .f32 :=
  View.canon [⟨r0_x, k0_pay1 (k0_pay11 (k0_pay5 (View.ld x0 r0_x) (View.ld x5 r0_w) (View.ld x6 r0_b))) (k0_pay12 (k0_pay5 (View.ld x0 r0_x) (View.ld x5 r0_w) (View.ld x6 r0_b)))⟩]

/-- A whole-block store covers the block. -/
theorem cover0_x (p0 : Vec F S2048x256 .f32) (y : S2048x256.Idx) :
    ∃ pc ∈ ([⟨r0_x, p0⟩] : List (View.Piece (Elt F) S2048x256 .f32)), y ∈ pc.1.set :=
  View.cover_of_tiled [⟨r0_x, p0⟩] S2048x256.size (by rfl) y

/-! ## The body's triple -/

set_option maxHeartbeats 4000000 in
/-- The kernel body on whole buffers, the inputs' at read contents and the outputs' at anything, runs to the
    continuation holding the inputs' as they were and each output's at its out0 of the inputs'. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S2048x256 .f32) (harg8 : arg8.IsWhole)
    (arg9 : Memref sig .tc .vmem S2048x256 .f32) (harg9 : arg9.IsWhole) (arg10 : Memref sig .tc .vmem S2048x256 .f32) (harg10 : arg10.IsWhole)
    (x0 : Vec F S2048x256 .f32) (x1 : Vec F S256x256 .f32) (x2 : Vec F S1x256 .f32) (x3 : Vec F S256x256 .f32) (x4 : Vec F S1x256 .f32)
    (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_x _)
  isplitl [H8]
  · iexists _; isplitr
    swap; · iexact H8
    ipureintro
    try dsimp only
    exact View.read_writes_eq_canon _ _ _ (cover0_x _)
  iexists _; isplitr
  swap; · iexact H9
  ipureintro
  try dsimp only
  exact View.read_writes_eq_canon _ _ _ (cover0_x _)

/-! ## The pipeline's proof data -/

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the kernel's triple applies; the invariant
    and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The second region (scores, the softmax along the first axis, the weighted sum of values accumulated over
  the four key tiles in a scratch block), at the contents V the region finds in the TensorCore's buffers:
  each window's block at a grid point, the scratch block after each point, the proof data of the pipeline
  with the invariant that names the scratch block's contents, and the body's obligation at every point.
  Stated at any float instance.
-/
import proofs.«102405_j6794638262727_1_alg».proof.Proof.Gen.KernelIdeal.Launch
import proofs.«102405_j6794638262727_1_alg».proof.Proof.Gen.KernelIdeal.Skeleton
import proofs.«102405_j6794638262727_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block stores and loads at zero offsets, over any view -/

section Whole

variable {sig' : RefSig} {κ : Kind} {sp : Space} {S : Shape} {e : EltTy} {Val : EltTy → Type}

/-- A store through the whole-shape rectangle at zero offsets, the newest of a list of stores, leaves its
    payload, whatever the earlier stores and the contents before them were. -/
theorem hd_read_writes_unit_zero (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through that rectangle after such a store, the newest of a list, reads the stored payload. -/
theorem hd_readCov_cons_unit_zero [∀ e, Nonempty (Val e)] (v : View sig' κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- A load through that rectangle reads the contents as the view reads them. -/
theorem hd_readAt_unit_zero (v : View sig' κ sp S e) (f : v.ty.Contents Val) {off : Fin S.rank → Nat}
    (h : off = fun _ => 0) (inb : ∀ a, off a + S.size a ≤ S.size a) :
    v.readAt Val (Rect.unit off S.size inb).toLoadRect f = v.read Val f :=
  (View.readAt_eq_ld v f _).trans (View.ld_unit_zero h inb _)

end Whole

theorem hd_hz3 : (![0, 0, 0] : Fin 3 → Nat) = fun _ => 0 := by
  funext a; match a with | ⟨0, _⟩ => rfl | ⟨1, _⟩ => rfl | ⟨2, _⟩ => rfl

/-- The accumulation step is a function of its four blocks. -/
theorem hd_pay2_congr {q q' : Vec F S64x64x256 .f32} {k k' v v' : Vec F S64x128x256 .f32} {a a' : Vec F S64x64x256 .f32}
    (hq : q = q') (hk : k = k') (hv : v = v') (ha : a = a') : k1_pay2 q k v a = k1_pay2 q' k' v' a' := by
  subst hq; subst hk; subst hv; subst ha; rfl

/-! ## The body's branch condition -/

/-- The condition of the body's conditional (is this the first key tile?), from the grid coordinates. -/
abbrev hd_cond1 (i : grid1.Coords) : Prop := (Scalar.cmpi .ne (Scalar.extui (Scalar.cmpi .eq (BitVec.ofNat 32 (i 1).val) 0#32)) 0#32) = 1#1

/-- It holds at the points ≡ 0 (mod 4): decided over the grid's 32 points. -/
theorem hd_hcond1 : ∀ t : Fin cfg1.N, hd_cond1 (grid1.coords t) ↔ t.val % 4 = 0 :=
  (by decide +kernel : ∀ t : Fin grid1.N, hd_cond1 (grid1.coords t) ↔ t.val % 4 = 0)

/-! ## The body on any whole memrefs -/

set_option maxHeartbeats 1000000 in
/-- At a first key tile: the scratch block, whatever it held, is zeroed, then takes the tile's term; the output
    block takes a copy. The inputs' blocks are left as they were. -/
theorem hd_run_first (c : Dev nD) (E : Set ℕ) (i : grid1.Coords)
    (arg2 : Memref sig .tc .vmem S64x64x256 .f32) (harg2 : arg2.IsWhole) (arg3 : Memref sig .tc .vmem S64x128x256 .f32) (harg3 : arg3.IsWhole)
    (arg4 : Memref sig .tc .vmem S64x128x256 .f32) (harg4 : arg4.IsWhole) (arg5 : Memref sig .tc .vmem S64x64x256 .f32) (harg5 : arg5.IsWhole)
    (arg6 : Memref sig .tc .vmem S64x64x256 .f32) (harg6 : arg6.IsWhole) (hc : hd_cond1 i)
    (q : Vec F S64x64x256 .f32) (k v : Vec F S64x128x256 .f32) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare (k1_pay2 q k v (k1_pay1 (F := F))) ∗ owns (c : Thread nD τ) arg6 fullShare (k1_pay2 q k v (k1_pay1 (F := F)))) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (hd_read_writes_unit_zero _ _ hd_hz3 _ _ _).trans ?_
    sl_unfold_run_names
    refine (hd_readCov_cons_unit_zero _ hd_hz3 _ _ _).trans ?_
    exact hd_pay2_congr (hd_readAt_unit_zero _ _ hd_hz3 _) (hd_readAt_unit_zero _ _ hd_hz3 _) (hd_readAt_unit_zero _ _ hd_hz3 _)
      (hd_readCov_cons_unit_zero _ hd_hz3 _ _ _)
  · iexists _; isplitr
    swap; · iexact H6
    ipureintro
    sl_unfold_run_names
    refine (hd_read_writes_unit_zero _ _ hd_hz3 _ _ _).trans ?_
    exact hd_pay2_congr (hd_readAt_unit_zero _ _ hd_hz3 _) (hd_readAt_unit_zero _ _ hd_hz3 _) (hd_readAt_unit_zero _ _ hd_hz3 _)
      (hd_readCov_cons_unit_zero _ hd_hz3 _ _ _)

set_option maxHeartbeats 1000000 in
/-- At a later key tile: the scratch block, holding a, takes a plus the tile's term; the output block takes a
    copy. The inputs' blocks are left as they were. -/
theorem hd_run_next (c : Dev nD) (E : Set ℕ) (i : grid1.Coords)
    (arg2 : Memref sig .tc .vmem S64x64x256 .f32) (harg2 : arg2.IsWhole) (arg3 : Memref sig .tc .vmem S64x128x256 .f32) (harg3 : arg3.IsWhole)
    (arg4 : Memref sig .tc .vmem S64x128x256 .f32) (harg4 : arg4.IsWhole) (arg5 : Memref sig .tc .vmem S64x64x256 .f32) (harg5 : arg5.IsWhole)
    (arg6 : Memref sig .tc .vmem S64x64x256 .f32) (harg6 : arg6.IsWhole) (hc : ¬hd_cond1 i)
    (q : Vec F S64x64x256 .f32) (k v : Vec F S64x128x256 .f32) (a : Vec F S64x64x256 .f32) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ owns (c : Thread nD τ) arg6 fullShare a
        ∗ (iprop(owns (c : Thread nD τ) arg2 fullShare q ∗ owns (c : Thread nD τ) arg3 fullShare k ∗ owns (c : Thread nD τ) arg4 fullShare v
            ∗ owns (c : Thread nD τ) arg5 fullShare (k1_pay2 q k v a) ∗ owns (c : Thread nD τ) arg6 fullShare (k1_pay2 q k v a)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (hd_read_writes_unit_zero _ _ hd_hz3 _ _ _).trans ?_
    sl_unfold_run_names
    refine (hd_readCov_cons_unit_zero _ hd_hz3 _ _ _).trans ?_
    exact hd_pay2_congr (hd_readAt_unit_zero _ _ hd_hz3 _) (hd_readAt_unit_zero _ _ hd_hz3 _) (hd_readAt_unit_zero _ _ hd_hz3 _)
      (hd_readAt_unit_zero _ _ hd_hz3 _)
  · iexists _; isplitr
    swap; · iexact H6
    ipureintro
    sl_unfold_run_names
    refine (hd_read_writes_unit_zero _ _ hd_hz3 _ _ _).trans ?_
    exact hd_pay2_congr (hd_readAt_unit_zero _ _ hd_hz3 _) (hd_readAt_unit_zero _ _ hd_hz3 _) (hd_readAt_unit_zero _ _ hd_hz3 _)
      (hd_readAt_unit_zero _ _ hd_hz3 _)

-- the TensorCore's buffer contents when the region is entered
variable (V : (c : Dev nD) → (b : Ref sig .tc) → Buf (Elt F) ((c : Thread nD τ).loc b))

/-! ## The windows' blocks and the scratch block point by point -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. What the scratch block (and with it the output window's staging buffer) holds after the
    body at position n: the key tile's term added to what the position before left, or to the zero block at a
    first key tile (n ≡ 0 mod 4). -/
def hd_acc1 (c : Dev nD) : (n : ℕ) → n < cfg1.N → Vec F S64x64x256 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 4 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (hd_acc1 c n (Nat.lt_of_succ_lt hn))

/-- At a first key tile the accumulation starts from the zero block. -/
theorem hd_acc1_first (c : Dev nD) (t : Fin cfg1.N) (h0 : t.val % 4 = 0) :
    hd_acc1 V c t.val t.isLt = k1_pay2 (iblk1 V c 0 t) (iblk1 V c 1 t) (iblk1 V c 2 t) (k1_pay1 (F := F)) := by
  obtain ⟨n, hn⟩ := t
  cases n with
  | zero => exact rfl
  | succ n => exact (if_pos h0).trans rfl

/-- At a later key tile it goes on from what the point before left. -/
theorem hd_acc1_next (c : Dev nD) (t : Fin cfg1.N) (h0 : ¬t.val % 4 = 0) :
    hd_acc1 V c t.val t.isLt = k1_pay2 (iblk1 V c 0 t) (iblk1 V c 1 t) (iblk1 V c 2 t)
      (hd_acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant -/

/-- The scratch operand: a whole scoped buffer of the kernel's own, passed beside the windows. -/
abbrev hd_scM1 : Memref sig .tc .vmem S64x64x256 .f32 := Memref.whole cc1_scratch0

/-- The core's other scoped buffers that are no staging buffer of this call, at some contents each, unopened. -/
def hd_rest1 (c : Dev nD) : sProp 𝕄 :=
  Pipeline.scopedRestBut (Ix := Unit) (Name := ℕ) (U := UR sig nD τ) (Lvl := ℕ) (Val := Elt F) spec1 c [cc1_scratch0]

/-- What the launch hands the region, with the scratch block split off as a memref owned at some contents. -/
theorem hd_PhiA1_eq (c : Dev nD) :
    (Pipeline.ΦA spec1 c : sProp 𝕄)
      = iprop(iprop((∃ d, owns (c : Thread nD τ) hd_scM1 fullShare d) ∗ hd_rest1 (F := F) c) ∗ (∃ r, prngReg c r)) := by
  unfold Pipeline.ΦA hd_rest1
  rw [Pipeline.scopedRest_split_of_list spec1 c [cc1_scratch0] (by decide) (by decide)]
  simp only [bigSepL_singleton, hd_scM1, owns_whole]; try rfl

/-- The region invariant before position n: before the first point what the launch hands over (the scratch
    block at anything); afterwards the scratch block at what the point before left in it, the other scoped
    buffers at anything and the generator register at some state. -/
def hd_PhiS1 (c : Dev nD) : (n : ℕ) → n ≤ cfg1.N → sProp 𝕄
  | 0, _ => Pipeline.ΦA spec1 c
  | n + 1, hn => iprop(iprop(owns (c : Thread nD τ) hd_scM1 fullShare (hd_acc1 V c n hn) ∗ hd_rest1 (F := F) c) ∗ (∃ r, prngReg c r))

theorem hd_PhiS1_zero (c : Dev nD) (n : ℕ) (h : n ≤ cfg1.N) (hz : n = 0) : hd_PhiS1 V c n h = Pipeline.ΦA spec1 c := by
  subst hz; rfl

theorem hd_PhiS1_succ (c : Dev nD) (n : ℕ) (hn : n < cfg1.N) :
    hd_PhiS1 V c (n + 1) hn = iprop(iprop(owns (c : Thread nD τ) hd_scM1 fullShare (hd_acc1 V c n hn) ∗ hd_rest1 (F := F) c) ∗ (∃ r, prngReg c r)) := rfl

theorem hd_PhiS1_pos (c : Dev nD) (n : ℕ) (h : n ≤ cfg1.N) (hz : n ≠ 0) :
    hd_PhiS1 V c n h = iprop(iprop(owns (c : Thread nD τ) hd_scM1 fullShare (hd_acc1 V c (n - 1) (by omega)) ∗ hd_rest1 (F := F) c) ∗ (∃ r, prngReg c r)) := by
  cases n with
  | zero => exact absurd rfl hz
  | succ n => rfl

/-- At any position the invariant gives the scratch block at some contents, the rest and the register. -/
theorem hd_PhiS1_open (c : Dev nD) (n : ℕ) (h : n ≤ cfg1.N) :
    hd_PhiS1 V c n h ⊢ iprop(iprop((∃ d, owns (c : Thread nD τ) hd_scM1 fullShare d) ∗ hd_rest1 (F := F) c) ∗ (∃ r, prngReg c r)) := by
  cases n with
  | zero => rw [hd_PhiS1_zero V c 0 h rfl, hd_PhiA1_eq]
  | succ n =>
    rw [hd_PhiS1_succ]
    iintro ⟨⟨HS, HR⟩, Hg⟩
    isplitl [HS HR]
    · isplitl [HS]
      · iexists _; iexact HS
      iexact HR
    iexact Hg

/-! ## The pipeline's proof data -/

/-- The proof data of the second pipeline on core c: the arrays as the region finds them; after the body at
    point t each input's buffer at its block and the output's at the accumulation there; the invariant
    naming the scratch block's contents; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => hd_acc1 V c t.val t.isLt
  Φ t := hd_PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem hd_Phi_castSucc (c : Dev nD) (t : Fin cfg1.N) :
    (dat1 V c).Φ t.castSucc = hd_PhiS1 V c t.val (Nat.le_of_lt t.isLt) := by
  dsimp only [dat1]; simp only [Fin.coe_castSucc]

/-- What the body leaves, window by window. -/
theorem hd_after1_0 (c : Dev nD) (t : Fin cfg1.N) : (dat1 V c).after 0 t = iblk1 V c 0 t := by dsimp only [dat1]
theorem hd_after1_1 (c : Dev nD) (t : Fin cfg1.N) : (dat1 V c).after 1 t = iblk1 V c 1 t := by dsimp only [dat1]
theorem hd_after1_2 (c : Dev nD) (t : Fin cfg1.N) : (dat1 V c).after 2 t = iblk1 V c 2 t := by dsimp only [dat1]
theorem hd_after1_3 (c : Dev nD) (t : Fin cfg1.N) : (dat1 V c).after 3 t = hd_acc1 V c t.val t.isLt := by dsimp only [dat1]

/-- Each input's current staging buffer holds its block at every point, fetched there or not: unfetched, the
    block index has not moved, and the body leaves the block in place. -/
theorem hd_before1_0 (c : Dev nD) (t : Fin cfg1.N) (d) : (dat1 V c).before 0 t d = iblk1 V c 0 t :=
  ((dat1 V c).before_in_eq_fetched 0 rfl (fun _ => rfl) (fun _ _ _ => rfl) (fun t => by rw [hd_after1_0]; unfold Dat.blockOf iblk1; rw [A_eq1]; try rfl) t d).trans
    (by unfold Dat.fetched Dat.blockOf iblk1; rw [A_eq1]; try rfl)
theorem hd_before1_1 (c : Dev nD) (t : Fin cfg1.N) (d) : (dat1 V c).before 1 t d = iblk1 V c 1 t :=
  ((dat1 V c).before_in_eq_fetched 1 rfl (fun _ => rfl) (fun _ _ _ => rfl) (fun t => by rw [hd_after1_1]; unfold Dat.blockOf iblk1; rw [A_eq1]; try rfl) t d).trans
    (by unfold Dat.fetched Dat.blockOf iblk1; rw [A_eq1]; try rfl)
theorem hd_before1_2 (c : Dev nD) (t : Fin cfg1.N) (d) : (dat1 V c).before 2 t d = iblk1 V c 2 t :=
  ((dat1 V c).before_in_eq_fetched 2 rfl (fun _ => rfl) (fun _ _ _ => rfl) (fun t => by rw [hd_after1_2]; unfold Dat.blockOf iblk1; rw [A_eq1]; try rfl) t d).trans
    (by unfold Dat.fetched Dat.blockOf iblk1; rw [A_eq1]; try rfl)

/-! ## The body obligation, at a generic point -/

/-- What the body is called with at point t (the obligation's precondition, the windows one by one), -/
def hd_bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the output window is live at every point (the body overwrites its block whole). -/
def hd_bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' memrefs hold their blocks; the closed form of the condition says whether
    the point is a first key tile; the invariant hands the body the scratch block — at anything at a first key
    tile, at what the point before left otherwise — and takes it back at this point's accumulation; the other
    scoped buffers, the register and what the core owes pass through unread. -/
theorem hd_sound_body1 (c : Dev nD) (t : Fin cfg1.N) :
    hd_bodyPre1 V c t ⊢ wp frame (wpE (defs₀ (F := F)) Variants.none c none) Set.univ (bodyAt1 t) (fun _ => hd_bodyPost1 V c t) := by
  unfold hd_bodyPre1 hd_bodyPost1 bodyAt1
  simp only [hd_before1_0, hd_before1_1, hd_before1_2]
  rw [show (dat1 V c).owesAt () t.succ = (dat1 V c).owesAt () t.castSucc from rfl]
  rw [show (dat1 V c).Φ t.succ = hd_PhiS1 V c (t.val + 1) t.isLt from rfl, hd_PhiS1_succ]
  rw [hd_after1_0, hd_after1_1, hd_after1_2, hd_after1_3, hd_Phi_castSucc V c t]
  by_cases h0 : t.val % 4 = 0
  · rw [hd_acc1_first V c t h0]
    iintro ⟨HΦ, Ho, ⟨%d0, H0⟩, ⟨%d1, H1⟩, ⟨%d2, H2⟩, ⟨%d3, H3⟩⟩
    ihave HΦ' := (hd_PhiS1_open V c t.val _) $$ HΦ
    icases HΦ' with ⟨⟨HS, HR⟩, Hg⟩
    iapply (hd_run_first c Set.univ (grid1.coords t) _ _ _ _ _ _ _ _ _ _ ((hd_hcond1 t).mpr h0) (iblk1 V c 0 t) (iblk1 V c 1 t) (iblk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have hz : t.val ≠ 0 := fun e => h0 (by rw [e])
    rw [hd_acc1_next V c t h0, hd_PhiS1_pos V c _ _ hz]
    iintro ⟨⟨⟨HS, HR⟩, Hg⟩, Ho, ⟨%d0, H0⟩, ⟨%d1, H1⟩, ⟨%d2, H2⟩, ⟨%d3, H3⟩⟩
    iapply (hd_run_next c Set.univ (grid1.coords t) _ _ _ _ _ _ _ _ _ _ (fun h => h0 ((hd_hcond1 t).mp h)) (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The body's obligation at every point. -/
theorem body_obligation1 (c : Dev nD) : BodyObligation (dat1 (F := F) V c) (defs₀ (F := F)) Variants.none () Set.univ := fun t => by
  rw [bigSep_W1, bigSep_W1]
  exact hd_sound_body1 V c t

/-- What the launch hands the region is the invariant before the first point. -/
theorem hin1 (c : Dev nD) : (Pipeline.ΦA spec1 c : sProp 𝕄) ⊢ (dat1 V c).Φ 0 := by
  rw [show (dat1 V c).Φ 0 = hd_PhiS1 V c 0 (Nat.zero_le _) from rfl, hd_PhiS1_zero V c 0 _ rfl]

/-- After the last point the invariant gives it back, the scratch block's contents forgotten. -/
theorem hout1 (c : Dev nD) : (dat1 V c).Φ (Fin.last cfg1.N) ⊢ (Pipeline.ΦA spec1 c : sProp 𝕄) := by
  rw [show (dat1 V c).Φ (Fin.last cfg1.N) = hd_PhiS1 V c (Fin.last cfg1.N).val (Nat.le_of_lt_succ (Fin.last cfg1.N).isLt) from rfl, hd_PhiA1_eq]
  exact hd_PhiS1_open V c _ _

end Cert.KernelIdeal.Hand

end
-- ==== Proof.Run.lean ====
/-
  The run of @main as four segments — the host operations before the first region (a reshape of x to 32768 × 256, the
  three weight matrices transposed, the three bias rows as 1 × 256), the first region, three reshapes of its results
  back to 64 × 512 × 256, the second region — from the launch to the return, at any float instance.
  The TensorCore's buffer contents at each boundary are a fold from the launch memory: a stretch of host operations
  applies them; a region leaves each of its windows' arrays at what its write-backs leave and every other buffer as
  it was. Every weakly fair execution terminates, the result buffer ends at the second region's array for its
  output window, and no argument array is changed.
-/
import proofs.«102405_j6794638262727_1_alg».proof.Proof.Body0
import proofs.«102405_j6794638262727_1_alg».proof.Proof.Body1
import proofs.«102405_j6794638262727_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the host operations before the first region. -/
abbrev W1 : Dev nD → Valuation τ sig (Elt F) := fun c => StableHlo.after hostOps0 (W0 m c)
/-- The same read at the TensorCore's references: what the first region finds. -/
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes between the regions. -/
abbrev W3 : Dev nD → Valuation τ sig (Elt F) := fun c => StableHlo.after hostOps1 (W2 m c)
/-- What the second region finds. -/
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No segment writes an argument: no host operation's result is one, no region's window array is one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered from every unscoped buffer at the contents before it, left at the contents after
    it. Its windows' arrays are split out of the unscoped buffers at entry and put back, at what the write-backs
    leave, at exit; the generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after
    it. Its windows' arrays are split out of the unscoped buffers at entry and put back, at what the write-backs
    leave, at exit; the generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (Pipeline.ΦA spec1 c : sProp 𝕄) ⊢ (pdats m 1 c).Φ 0 := hin1 (V3 m) c
    unfold Pipeline.ΦA at h1
    iintro ⟨Hp, -, Hr⟩
    iapply h1
    isplitl [Hr]; · iexact Hr
    iexact Hp
  hout c := by
    rw [Pipeline.ownSems0_none]
    have key : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m) c).trans key
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; in every final
    state the result buffer holds what the second region's write-backs leave in its output array, and each of the seven
    argument arrays is as launched. -/
theorem run_val : θ_run defs (onTc (τ := τ) (main (F := F))) ⟨m, fun _ => 0, ρ⟩ (fun r => ∀ c : Dev nD,
      r.2.mem ((c.tc : Thread nD τ).loc main_v11) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v11 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

/-- The frame: the same run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_val m ρ)

end Cert.KernelIdeal.Hand

end
-- ==== Proof.KBody0.lean ====
/-
  The first region (the three normalised projections), at the contents V the region finds in the
  TensorCore's buffers: each window's block at a grid point, what the body leaves in the three output
  blocks, the proof data of the pipeline and the body's obligation at every point. Stated at any float
  instance.
-/
import proofs.«102405_j6794638262727_1_alg».proof.Proof.Gen.Kernel.Launch
import proofs.«102405_j6794638262727_1_alg».proof.Proof.Gen.Kernel.Skeleton
import proofs.«102405_j6794638262727_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows hold their blocks -/

/-- Input window 0's current buffer holds its block at every point, fetched there or not: an unfetched
    window's block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not: an unfetched
    window's block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not: an unfetched
    window's block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not: an unfetched
    window's block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not: an unfetched
    window's block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not: an unfetched
    window's block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current buffer holds its block at every point, fetched there or not: an unfetched
    window's block index has not moved, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_x : Rect S2048x256 := Rect.unit (s := S2048x256) ![0, 0] S2048x256.size inb_S2048x256_S2048x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0

/-! ## What the body leaves in each output block -/

/-- The first output block after the body: its one store, of the normalised projection of the row block by the first
    matrix and bias. -/
def out0_7 (x0 : Vec F S2048x256 .f32) (x1 : Vec F S256x256 .f32) (x2 : Vec F S1x256 .f32) : Vec F S2048x256 .f32 :=
  View.canon [⟨r0_x, k0_pay8 (k0_pay3 (View.ld x0 r0_x) (View.ld x1 r0_w) (View.ld x2 r0_b)) (k0_pay6 (View.ld x0 r0_x) (View.ld x1 r0_w) (View.ld x2 r0_b)) (k0_pay7 (View.ld x0 r0_x) (View.ld x1 r0_w) (View.ld x2 r0_b))⟩]

/-- The second output block after the body: its one store, by the second matrix and bias. -/
def out0_8 (x0 : Vec F S2048x256 .f32) (x3 : Vec F S256x256 .f32) (x4 : Vec F S1x256 .f32) : Vec F S2048x256 .f32 :=
  View.canon [⟨r0_x, k0_pay9 (k0_pay4 (View.ld x0 r0_x) (View.ld x3 r0_w) (View.ld x4 r0_b))⟩]

/-- The third output block after the body: its one store, by the third matrix and bias. -/
def out0_9 (x0 : Vec F S2048x256 .f32) (x5 : Vec F S256x256 .f32) (x6 : Vec F S1x256 .f32) : Vec F S2048x256 .f32 :=
  View.canon [⟨r0_x, k0_pay1 (k0_pay11 (k0_pay5 (View.ld x0 r0_x) (View.ld x5 r0_w) (View.ld x6 r0_b))) (k0_pay12 (k0_pay5 (View.ld x0 r0_x) (View.ld x5 r0_w) (View.ld x6 r0_b)))⟩]

/-- A whole-block store covers the block. -/
theorem cover0_x (p0 : Vec F S2048x256 .f32) (y : S2048x256.Idx) :
    ∃ pc ∈ ([⟨r0_x, p0⟩] : List (View.Piece (Elt F) S2048x256 .f32)), y ∈ pc.1.set :=
  View.cover_of_tiled [⟨r0_x, p0⟩] S2048x256.size (by rfl) y

/-! ## The body's triple -/

set_option maxHeartbeats 4000000 in
/-- The kernel body on whole buffers, the inputs' at read contents and the outputs' at anything, runs to the
    continuation holding the inputs' as they were and each output's at its out0 of the inputs'. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S2048x256 .f32) (harg8 : arg8.IsWhole)
    (arg9 : Memref sig .tc .vmem S2048x256 .f32) (harg9 : arg9.IsWhole) (arg10 : Memref sig .tc .vmem S2048x256 .f32) (harg10 : arg10.IsWhole)
    (x0 : Vec F S2048x256 .f32) (x1 : Vec F S256x256 .f32) (x2 : Vec F S1x256 .f32) (x3 : Vec F S256x256 .f32) (x4 : Vec F S1x256 .f32)
    (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_x _)
  isplitl [H8]
  · iexists _; isplitr
    swap; · iexact H8
    ipureintro
    try dsimp only
    exact View.read_writes_eq_canon _ _ _ (cover0_x _)
  iexists _; isplitr
  swap; · iexact H9
  ipureintro
  try dsimp only
  exact View.read_writes_eq_canon _ _ _ (cover0_x _)

/-! ## The pipeline's proof data -/

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the kernel's triple applies; the invariant
    and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second region (scores, the softmax along the first axis, the weighted sum of values accumulated over
  the four key tiles in a scratch block), at the contents V the region finds in the TensorCore's buffers:
  each window's block at a grid point, the scratch block after each point, the proof data of the pipeline
  with the invariant that names the scratch block's contents, and the body's obligation at every point.
  Stated at any float instance.
-/
import proofs.«102405_j6794638262727_1_alg».proof.Proof.Gen.Kernel.Launch
import proofs.«102405_j6794638262727_1_alg».proof.Proof.Gen.Kernel.Skeleton
import proofs.«102405_j6794638262727_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block stores and loads at zero offsets, over any view -/

section Whole

variable {sig' : RefSig} {κ : Kind} {sp : Space} {S : Shape} {e : EltTy} {Val : EltTy → Type}

/-- A store through the whole-shape rectangle at zero offsets, the newest of a list of stores, leaves its
    payload, whatever the earlier stores and the contents before them were. -/
theorem hd_read_writes_unit_zero (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through that rectangle after such a store, the newest of a list, reads the stored payload. -/
theorem hd_readCov_cons_unit_zero [∀ e, Nonempty (Val e)] (v : View sig' κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- A load through that rectangle reads the contents as the view reads them. -/
theorem hd_readAt_unit_zero (v : View sig' κ sp S e) (f : v.ty.Contents Val) {off : Fin S.rank → Nat}
    (h : off = fun _ => 0) (inb : ∀ a, off a + S.size a ≤ S.size a) :
    v.readAt Val (Rect.unit off S.size inb).toLoadRect f = v.read Val f :=
  (View.readAt_eq_ld v f _).trans (View.ld_unit_zero h inb _)

end Whole

theorem hd_hz3 : (![0, 0, 0] : Fin 3 → Nat) = fun _ => 0 := by
  funext a; match a with | ⟨0, _⟩ => rfl | ⟨1, _⟩ => rfl | ⟨2, _⟩ => rfl

/-- The accumulation step is a function of its four blocks. -/
theorem hd_pay2_congr {q q' : Vec F S64x64x256 .f32} {k k' v v' : Vec F S64x128x256 .f32} {a a' : Vec F S64x64x256 .f32}
    (hq : q = q') (hk : k = k') (hv : v = v') (ha : a = a') : k1_pay2 q k v a = k1_pay2 q' k' v' a' := by
  subst hq; subst hk; subst hv; subst ha; rfl

/-! ## The body's branch condition -/

/-- The condition of the body's conditional (is this the first key tile?), from the grid coordinates. -/
abbrev hd_cond1 (i : grid1.Coords) : Prop := (Scalar.cmpi .ne (Scalar.extui (Scalar.cmpi .eq (BitVec.ofNat 32 (i 1).val) 0#32)) 0#32) = 1#1

/-- It holds at the points ≡ 0 (mod 4): decided over the grid's 32 points. -/
theorem hd_hcond1 : ∀ t : Fin cfg1.N, hd_cond1 (grid1.coords t) ↔ t.val % 4 = 0 :=
  (by decide +kernel : ∀ t : Fin grid1.N, hd_cond1 (grid1.coords t) ↔ t.val % 4 = 0)

/-! ## The body on any whole memrefs -/

set_option maxHeartbeats 1000000 in
/-- At a first key tile: the scratch block, whatever it held, is zeroed, then takes the tile's term; the output
    block takes a copy. The inputs' blocks are left as they were. -/
theorem hd_run_first (c : Dev nD) (E : Set ℕ) (i : grid1.Coords)
    (arg2 : Memref sig .tc .vmem S64x64x256 .f32) (harg2 : arg2.IsWhole) (arg3 : Memref sig .tc .vmem S64x128x256 .f32) (harg3 : arg3.IsWhole)
    (arg4 : Memref sig .tc .vmem S64x128x256 .f32) (harg4 : arg4.IsWhole) (arg5 : Memref sig .tc .vmem S64x64x256 .f32) (harg5 : arg5.IsWhole)
    (arg6 : Memref sig .tc .vmem S64x64x256 .f32) (harg6 : arg6.IsWhole) (hc : hd_cond1 i)
    (q : Vec F S64x64x256 .f32) (k v : Vec F S64x128x256 .f32) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare (k1_pay2 q k v (k1_pay1 (F := F))) ∗ owns (c : Thread nD τ) arg6 fullShare (k1_pay2 q k v (k1_pay1 (F := F)))) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (hd_read_writes_unit_zero _ _ hd_hz3 _ _ _).trans ?_
    sl_unfold_run_names
    refine (hd_readCov_cons_unit_zero _ hd_hz3 _ _ _).trans ?_
    exact hd_pay2_congr (hd_readAt_unit_zero _ _ hd_hz3 _) (hd_readAt_unit_zero _ _ hd_hz3 _) (hd_readAt_unit_zero _ _ hd_hz3 _)
      (hd_readCov_cons_unit_zero _ hd_hz3 _ _ _)
  · iexists _; isplitr
    swap; · iexact H6
    ipureintro
    sl_unfold_run_names
    refine (hd_read_writes_unit_zero _ _ hd_hz3 _ _ _).trans ?_
    exact hd_pay2_congr (hd_readAt_unit_zero _ _ hd_hz3 _) (hd_readAt_unit_zero _ _ hd_hz3 _) (hd_readAt_unit_zero _ _ hd_hz3 _)
      (hd_readCov_cons_unit_zero _ hd_hz3 _ _ _)

set_option maxHeartbeats 1000000 in
/-- At a later key tile: the scratch block, holding a, takes a plus the tile's term; the output block takes a
    copy. The inputs' blocks are left as they were. -/
theorem hd_run_next (c : Dev nD) (E : Set ℕ) (i : grid1.Coords)
    (arg2 : Memref sig .tc .vmem S64x64x256 .f32) (harg2 : arg2.IsWhole) (arg3 : Memref sig .tc .vmem S64x128x256 .f32) (harg3 : arg3.IsWhole)
    (arg4 : Memref sig .tc .vmem S64x128x256 .f32) (harg4 : arg4.IsWhole) (arg5 : Memref sig .tc .vmem S64x64x256 .f32) (harg5 : arg5.IsWhole)
    (arg6 : Memref sig .tc .vmem S64x64x256 .f32) (harg6 : arg6.IsWhole) (hc : ¬hd_cond1 i)
    (q : Vec F S64x64x256 .f32) (k v : Vec F S64x128x256 .f32) (a : Vec F S64x64x256 .f32) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ owns (c : Thread nD τ) arg6 fullShare a
        ∗ (iprop(owns (c : Thread nD τ) arg2 fullShare q ∗ owns (c : Thread nD τ) arg3 fullShare k ∗ owns (c : Thread nD τ) arg4 fullShare v
            ∗ owns (c : Thread nD τ) arg5 fullShare (k1_pay2 q k v a) ∗ owns (c : Thread nD τ) arg6 fullShare (k1_pay2 q k v a)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (hd_read_writes_unit_zero _ _ hd_hz3 _ _ _).trans ?_
    sl_unfold_run_names
    refine (hd_readCov_cons_unit_zero _ hd_hz3 _ _ _).trans ?_
    exact hd_pay2_congr (hd_readAt_unit_zero _ _ hd_hz3 _) (hd_readAt_unit_zero _ _ hd_hz3 _) (hd_readAt_unit_zero _ _ hd_hz3 _)
      (hd_readAt_unit_zero _ _ hd_hz3 _)
  · iexists _; isplitr
    swap; · iexact H6
    ipureintro
    sl_unfold_run_names
    refine (hd_read_writes_unit_zero _ _ hd_hz3 _ _ _).trans ?_
    exact hd_pay2_congr (hd_readAt_unit_zero _ _ hd_hz3 _) (hd_readAt_unit_zero _ _ hd_hz3 _) (hd_readAt_unit_zero _ _ hd_hz3 _)
      (hd_readAt_unit_zero _ _ hd_hz3 _)

-- the TensorCore's buffer contents when the region is entered
variable (V : (c : Dev nD) → (b : Ref sig .tc) → Buf (Elt F) ((c : Thread nD τ).loc b))

/-! ## The windows' blocks and the scratch block point by point -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. What the scratch block (and with it the output window's staging buffer) holds after the
    body at position n: the key tile's term added to what the position before left, or to the zero block at a
    first key tile (n ≡ 0 mod 4). -/
def hd_acc1 (c : Dev nD) : (n : ℕ) → n < cfg1.N → Vec F S64x64x256 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 4 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (hd_acc1 c n (Nat.lt_of_succ_lt hn))

/-- At a first key tile the accumulation starts from the zero block. -/
theorem hd_acc1_first (c : Dev nD) (t : Fin cfg1.N) (h0 : t.val % 4 = 0) :
    hd_acc1 V c t.val t.isLt = k1_pay2 (iblk1 V c 0 t) (iblk1 V c 1 t) (iblk1 V c 2 t) (k1_pay1 (F := F)) := by
  obtain ⟨n, hn⟩ := t
  cases n with
  | zero => exact rfl
  | succ n => exact (if_pos h0).trans rfl

/-- At a later key tile it goes on from what the point before left. -/
theorem hd_acc1_next (c : Dev nD) (t : Fin cfg1.N) (h0 : ¬t.val % 4 = 0) :
    hd_acc1 V c t.val t.isLt = k1_pay2 (iblk1 V c 0 t) (iblk1 V c 1 t) (iblk1 V c 2 t)
      (hd_acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant -/

/-- The scratch operand: a whole scoped buffer of the kernel's own, passed beside the windows. -/
abbrev hd_scM1 : Memref sig .tc .vmem S64x64x256 .f32 := Memref.whole cc1_scratch0

/-- The core's other scoped buffers that are no staging buffer of this call, at some contents each, unopened. -/
def hd_rest1 (c : Dev nD) : sProp 𝕄 :=
  Pipeline.scopedRestBut (Ix := Unit) (Name := ℕ) (U := UR sig nD τ) (Lvl := ℕ) (Val := Elt F) spec1 c [cc1_scratch0]

/-- What the launch hands the region, with the scratch block split off as a memref owned at some contents. -/
theorem hd_PhiA1_eq (c : Dev nD) :
    (Pipeline.ΦA spec1 c : sProp 𝕄)
      = iprop(iprop((∃ d, owns (c : Thread nD τ) hd_scM1 fullShare d) ∗ hd_rest1 (F := F) c) ∗ (∃ r, prngReg c r)) := by
  unfold Pipeline.ΦA hd_rest1
  rw [Pipeline.scopedRest_split_of_list spec1 c [cc1_scratch0] (by decide) (by decide)]
  simp only [bigSepL_singleton, hd_scM1, owns_whole]; try rfl

/-- The region invariant before position n: before the first point what the launch hands over (the scratch
    block at anything); afterwards the scratch block at what the point before left in it, the other scoped
    buffers at anything and the generator register at some state. -/
def hd_PhiS1 (c : Dev nD) : (n : ℕ) → n ≤ cfg1.N → sProp 𝕄
  | 0, _ => Pipeline.ΦA spec1 c
  | n + 1, hn => iprop(iprop(owns (c : Thread nD τ) hd_scM1 fullShare (hd_acc1 V c n hn) ∗ hd_rest1 (F := F) c) ∗ (∃ r, prngReg c r))

theorem hd_PhiS1_zero (c : Dev nD) (n : ℕ) (h : n ≤ cfg1.N) (hz : n = 0) : hd_PhiS1 V c n h = Pipeline.ΦA spec1 c := by
  subst hz; rfl

theorem hd_PhiS1_succ (c : Dev nD) (n : ℕ) (hn : n < cfg1.N) :
    hd_PhiS1 V c (n + 1) hn = iprop(iprop(owns (c : Thread nD τ) hd_scM1 fullShare (hd_acc1 V c n hn) ∗ hd_rest1 (F := F) c) ∗ (∃ r, prngReg c r)) := rfl

theorem hd_PhiS1_pos (c : Dev nD) (n : ℕ) (h : n ≤ cfg1.N) (hz : n ≠ 0) :
    hd_PhiS1 V c n h = iprop(iprop(owns (c : Thread nD τ) hd_scM1 fullShare (hd_acc1 V c (n - 1) (by omega)) ∗ hd_rest1 (F := F) c) ∗ (∃ r, prngReg c r)) := by
  cases n with
  | zero => exact absurd rfl hz
  | succ n => rfl

/-- At any position the invariant gives the scratch block at some contents, the rest and the register. -/
theorem hd_PhiS1_open (c : Dev nD) (n : ℕ) (h : n ≤ cfg1.N) :
    hd_PhiS1 V c n h ⊢ iprop(iprop((∃ d, owns (c : Thread nD τ) hd_scM1 fullShare d) ∗ hd_rest1 (F := F) c) ∗ (∃ r, prngReg c r)) := by
  cases n with
  | zero => rw [hd_PhiS1_zero V c 0 h rfl, hd_PhiA1_eq]
  | succ n =>
    rw [hd_PhiS1_succ]
    iintro ⟨⟨HS, HR⟩, Hg⟩
    isplitl [HS HR]
    · isplitl [HS]
      · iexists _; iexact HS
      iexact HR
    iexact Hg

/-! ## The pipeline's proof data -/

/-- The proof data of the second pipeline on core c: the arrays as the region finds them; after the body at
    point t each input's buffer at its block and the output's at the accumulation there; the invariant
    naming the scratch block's contents; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => hd_acc1 V c t.val t.isLt
  Φ t := hd_PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem hd_Phi_castSucc (c : Dev nD) (t : Fin cfg1.N) :
    (dat1 V c).Φ t.castSucc = hd_PhiS1 V c t.val (Nat.le_of_lt t.isLt) := by
  dsimp only [dat1]; simp only [Fin.coe_castSucc]

/-- What the body leaves, window by window. -/
theorem hd_after1_0 (c : Dev nD) (t : Fin cfg1.N) : (dat1 V c).after 0 t = iblk1 V c 0 t := by dsimp only [dat1]
theorem hd_after1_1 (c : Dev nD) (t : Fin cfg1.N) : (dat1 V c).after 1 t = iblk1 V c 1 t := by dsimp only [dat1]
theorem hd_after1_2 (c : Dev nD) (t : Fin cfg1.N) : (dat1 V c).after 2 t = iblk1 V c 2 t := by dsimp only [dat1]
theorem hd_after1_3 (c : Dev nD) (t : Fin cfg1.N) : (dat1 V c).after 3 t = hd_acc1 V c t.val t.isLt := by dsimp only [dat1]

/-- Each input's current staging buffer holds its block at every point, fetched there or not: unfetched, the
    block index has not moved, and the body leaves the block in place. -/
theorem hd_before1_0 (c : Dev nD) (t : Fin cfg1.N) (d) : (dat1 V c).before 0 t d = iblk1 V c 0 t :=
  ((dat1 V c).before_in_eq_fetched 0 rfl (fun _ => rfl) (fun _ _ _ => rfl) (fun t => by rw [hd_after1_0]; unfold Dat.blockOf iblk1; rw [A_eq1]; try rfl) t d).trans
    (by unfold Dat.fetched Dat.blockOf iblk1; rw [A_eq1]; try rfl)
theorem hd_before1_1 (c : Dev nD) (t : Fin cfg1.N) (d) : (dat1 V c).before 1 t d = iblk1 V c 1 t :=
  ((dat1 V c).before_in_eq_fetched 1 rfl (fun _ => rfl) (fun _ _ _ => rfl) (fun t => by rw [hd_after1_1]; unfold Dat.blockOf iblk1; rw [A_eq1]; try rfl) t d).trans
    (by unfold Dat.fetched Dat.blockOf iblk1; rw [A_eq1]; try rfl)
theorem hd_before1_2 (c : Dev nD) (t : Fin cfg1.N) (d) : (dat1 V c).before 2 t d = iblk1 V c 2 t :=
  ((dat1 V c).before_in_eq_fetched 2 rfl (fun _ => rfl) (fun _ _ _ => rfl) (fun t => by rw [hd_after1_2]; unfold Dat.blockOf iblk1; rw [A_eq1]; try rfl) t d).trans
    (by unfold Dat.fetched Dat.blockOf iblk1; rw [A_eq1]; try rfl)

/-! ## The body obligation, at a generic point -/

/-- What the body is called with at point t (the obligation's precondition, the windows one by one), -/
def hd_bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the output window is live at every point (the body overwrites its block whole). -/
def hd_bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' memrefs hold their blocks; the closed form of the condition says whether
    the point is a first key tile; the invariant hands the body the scratch block — at anything at a first key
    tile, at what the point before left otherwise — and takes it back at this point's accumulation; the other
    scoped buffers, the register and what the core owes pass through unread. -/
theorem hd_sound_body1 (c : Dev nD) (t : Fin cfg1.N) :
    hd_bodyPre1 V c t ⊢ wp frame (wpE (defs₀ (F := F)) Variants.none c none) Set.univ (bodyAt1 t) (fun _ => hd_bodyPost1 V c t) := by
  unfold hd_bodyPre1 hd_bodyPost1 bodyAt1
  simp only [hd_before1_0, hd_before1_1, hd_before1_2]
  rw [show (dat1 V c).owesAt () t.succ = (dat1 V c).owesAt () t.castSucc from rfl]
  rw [show (dat1 V c).Φ t.succ = hd_PhiS1 V c (t.val + 1) t.isLt from rfl, hd_PhiS1_succ]
  rw [hd_after1_0, hd_after1_1, hd_after1_2, hd_after1_3, hd_Phi_castSucc V c t]
  by_cases h0 : t.val % 4 = 0
  · rw [hd_acc1_first V c t h0]
    iintro ⟨HΦ, Ho, ⟨%d0, H0⟩, ⟨%d1, H1⟩, ⟨%d2, H2⟩, ⟨%d3, H3⟩⟩
    ihave HΦ' := (hd_PhiS1_open V c t.val _) $$ HΦ
    icases HΦ' with ⟨⟨HS, HR⟩, Hg⟩
    iapply (hd_run_first c Set.univ (grid1.coords t) _ _ _ _ _ _ _ _ _ _ ((hd_hcond1 t).mpr h0) (iblk1 V c 0 t) (iblk1 V c 1 t) (iblk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have hz : t.val ≠ 0 := fun e => h0 (by rw [e])
    rw [hd_acc1_next V c t h0, hd_PhiS1_pos V c _ _ hz]
    iintro ⟨⟨⟨HS, HR⟩, Hg⟩, Ho, ⟨%d0, H0⟩, ⟨%d1, H1⟩, ⟨%d2, H2⟩, ⟨%d3, H3⟩⟩
    iapply (hd_run_next c Set.univ (grid1.coords t) _ _ _ _ _ _ _ _ _ _ (fun h => h0 ((hd_hcond1 t).mp h)) (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The body's obligation at every point. -/
theorem body_obligation1 (c : Dev nD) : BodyObligation (dat1 (F := F) V c) (defs₀ (F := F)) Variants.none () Set.univ := fun t => by
  rw [bigSep_W1, bigSep_W1]
  exact hd_sound_body1 V c t

/-- What the launch hands the region is the invariant before the first point. -/
theorem hin1 (c : Dev nD) : (Pipeline.ΦA spec1 c : sProp 𝕄) ⊢ (dat1 V c).Φ 0 := by
  rw [show (dat1 V c).Φ 0 = hd_PhiS1 V c 0 (Nat.zero_le _) from rfl, hd_PhiS1_zero V c 0 _ rfl]

/-- After the last point the invariant gives it back, the scratch block's contents forgotten. -/
theorem hout1 (c : Dev nD) : (dat1 V c).Φ (Fin.last cfg1.N) ⊢ (Pipeline.ΦA spec1 c : sProp 𝕄) := by
  rw [show (dat1 V c).Φ (Fin.last cfg1.N) = hd_PhiS1 V c (Fin.last cfg1.N).val (Nat.le_of_lt_succ (Fin.last cfg1.N).isLt) from rfl, hd_PhiA1_eq]
  exact hd_PhiS1_open V c _ _

end Cert.Kernel.Hand

end
-- ==== Proof.KRun.lean ====
/-
  The run of @main as four segments — the host operations before the first region (a reshape of x to 32768 × 256, the
  three weight matrices transposed, the three bias rows as 1 × 256), the first region, three reshapes of its results
  back to 64 × 512 × 256, the second region — from the launch to the return, at any float instance.
  The TensorCore's buffer contents at each boundary are a fold from the launch memory: a stretch of host operations
  applies them; a region leaves each of its windows' arrays at what its write-backs leave and every other buffer as
  it was. Every weakly fair execution terminates, the result buffer ends at the second region's array for its
  output window, and no argument array is changed.
-/
import proofs.«102405_j6794638262727_1_alg».proof.Proof.KBody0
import proofs.«102405_j6794638262727_1_alg».proof.Proof.KBody1
import proofs.«102405_j6794638262727_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the host operations before the first region. -/
abbrev W1 : Dev nD → Valuation τ sig (Elt F) := fun c => StableHlo.after hostOps0 (W0 m c)
/-- The same read at the TensorCore's references: what the first region finds. -/
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes between the regions. -/
abbrev W3 : Dev nD → Valuation τ sig (Elt F) := fun c => StableHlo.after hostOps1 (W2 m c)
/-- What the second region finds. -/
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No segment writes an argument: no host operation's result is one, no region's window array is one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered from every unscoped buffer at the contents before it, left at the contents after
    it. Its windows' arrays are split out of the unscoped buffers at entry and put back, at what the write-backs
    leave, at exit; the generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after
    it. Its windows' arrays are split out of the unscoped buffers at entry and put back, at what the write-backs
    leave, at exit; the generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (Pipeline.ΦA spec1 c : sProp 𝕄) ⊢ (pdats m 1 c).Φ 0 := hin1 (V3 m) c
    unfold Pipeline.ΦA at h1
    iintro ⟨Hp, -, Hr⟩
    iapply h1
    isplitl [Hr]; · iexact Hr
    iexact Hp
  hout c := by
    rw [Pipeline.ownSems0_none]
    have key : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m) c).trans key
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; in every final
    state the result buffer holds what the second region's write-backs leave in its output array, and each of the seven
    argument arrays is as launched. -/
theorem run_val : θ_run defs (onTc (τ := τ) (main (F := F))) ⟨m, fun _ => 0, ρ⟩ (fun r => ∀ c : Dev nD,
      r.2.mem ((c.tc : Thread nD τ).loc main_v11) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v11 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

/-- The frame: the same run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_val m ρ)

end Cert.Kernel.Hand

end
-- ==== Proof.Glue.lean ====
/-
  The host operations around the two regions read at explicit coordinates, at the exact instance, from any
  contents W of the buffers: the reshape of x to 32768 × 256 puts entry (b, n, e) at row 512·b + n; a transposed
  weight matrix reads at swapped coordinates; a bias row reshaped to 1 × 256 reads at its column; each reshape
  back to 64 × 512 × 256 after the first region reads row 512·b + n at (b, n).
-/
import proofs.«102405_j6794638262727_1_alg».proof.Proof.Gen.KernelIdeal.Launch
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (W : Valuation τ sig (Elt Ideal))

/-- Row 512·b + n of a 32768-row matrix: entry n of batch entry b. -/
def rowOf (b : Fin 64) (n : Fin 512) : Fin 32768 := ⟨512 * b.val + n.val, by omega⟩

/-- x reshaped to 32768 × 256: row 512·b + n is x's (b, n). -/
theorem pre_x (b : Fin 64) (n : Fin 512) (e : Fin 256) :
    (StableHlo.after (hostOps0 (F := Ideal)) W (Proc.devRef .tc main_v0) : S32768x256.Idx → EReal) (ix2 (rowOf b n) e)
      = (W (Proc.devRef .tc main_arg0) : S64x512x256.Idx → EReal) (ix3 b n e) := by
  have h : (StableHlo.after (hostOps0 (F := Ideal)) W (Proc.devRef .tc main_v0) : S32768x256.Idx → EReal)
      = shapeCast S32768x256 (W (Proc.devRef .tc main_arg0) : S64x512x256.Idx → EReal) shapeCasts_S64x512x256_S32768x256 := by
    after_results <;> rfl
  rw [h]
  refine shapeCast_apply _ _ _ _ ?_
  show (S64x512x256.rowMajor (ix3 b n e)).val = (S32768x256.rowMajor (ix2 (rowOf b n) e)).val
  rw [Shape.rowMajor_val_three, Shape.rowMajor_val_two]
  show (b.val * 512 + n.val) * 256 + e.val = (512 * b.val + n.val) * 256 + e.val
  omega

/-- The query weights transposed. -/
theorem pre_wq (d e : Fin 256) :
    (StableHlo.after (hostOps0 (F := Ideal)) W (Proc.devRef .tc main_v1) : S256x256.Idx → EReal) (ix2 e d)
      = (W (Proc.devRef .tc main_arg1) : S256x256.Idx → EReal) (ix2 d e) := by
  have h : (StableHlo.after (hostOps0 (F := Ideal)) W (Proc.devRef .tc main_v1) : S256x256.Idx → EReal)
      = transpose S256x256 [1, 0] (W (Proc.devRef .tc main_arg1) : S256x256.Idx → EReal) transposes_S256x256_S256x256_1_0 := by
    after_results <;> rfl
  rw [h]
  refine transpose_apply _ _ _ _ _ ?_
  intro a
  match a with
  | ⟨0, _⟩ => rfl
  | ⟨1, _⟩ => rfl

/-- The key weights transposed. -/
theorem pre_wk (d e : Fin 256) :
    (StableHlo.after (hostOps0 (F := Ideal)) W (Proc.devRef .tc main_v2) : S256x256.Idx → EReal) (ix2 e d)
      = (W (Proc.devRef .tc main_arg3) : S256x256.Idx → EReal) (ix2 d e) := by
  have h : (StableHlo.after (hostOps0 (F := Ideal)) W (Proc.devRef .tc main_v2) : S256x256.Idx → EReal)
      = transpose S256x256 [1, 0] (W (Proc.devRef .tc main_arg3) : S256x256.Idx → EReal) transposes_S256x256_S256x256_1_0 := by
    after_results <;> rfl
  rw [h]
  refine transpose_apply _ _ _ _ _ ?_
  intro a
  match a with
  | ⟨0, _⟩ => rfl
  | ⟨1, _⟩ => rfl

/-- The value weights transposed. -/
theorem pre_wv (d e : Fin 256) :
    (StableHlo.after (hostOps0 (F := Ideal)) W (Proc.devRef .tc main_v3) : S256x256.Idx → EReal) (ix2 e d)
      = (W (Proc.devRef .tc main_arg5) : S256x256.Idx → EReal) (ix2 d e) := by
  have h : (StableHlo.after (hostOps0 (F := Ideal)) W (Proc.devRef .tc main_v3) : S256x256.Idx → EReal)
      = transpose S256x256 [1, 0] (W (Proc.devRef .tc main_arg5) : S256x256.Idx → EReal) transposes_S256x256_S256x256_1_0 := by
    after_results <;> rfl
  rw [h]
  refine transpose_apply _ _ _ _ _ ?_
  intro a
  match a with
  | ⟨0, _⟩ => rfl
  | ⟨1, _⟩ => rfl

/-- The query bias as a 1 × 256 row. -/
theorem pre_bq (d : Fin 256) :
    (StableHlo.after (hostOps0 (F := Ideal)) W (Proc.devRef .tc main_v4) : S1x256.Idx → EReal) (ix2 0 d)
      = (W (Proc.devRef .tc main_arg2) : S256.Idx → EReal) (ix1 d) := by
  have h : (StableHlo.after (hostOps0 (F := Ideal)) W (Proc.devRef .tc main_v4) : S1x256.Idx → EReal)
      = shapeCast S1x256 (W (Proc.devRef .tc main_arg2) : S256.Idx → EReal) shapeCasts_S256_S1x256 := by
    after_results <;> rfl
  rw [h]
  refine shapeCast_apply _ _ _ _ ?_
  show (S256.rowMajor (ix1 d)).val = (S1x256.rowMajor (ix2 0 d)).val
  rw [Shape.rowMajor_val_one, Shape.rowMajor_val_two]
  show d.val = 0 * 256 + d.val
  omega

/-- The key bias as a 1 × 256 row. -/
theorem pre_bk (d : Fin 256) :
    (StableHlo.after (hostOps0 (F := Ideal)) W (Proc.devRef .tc main_v5) : S1x256.Idx → EReal) (ix2 0 d)
      = (W (Proc.devRef .tc main_arg4) : S256.Idx → EReal) (ix1 d) := by
  have h : (StableHlo.after (hostOps0 (F := Ideal)) W (Proc.devRef .tc main_v5) : S1x256.Idx → EReal)
      = shapeCast S1x256 (W (Proc.devRef .tc main_arg4) : S256.Idx → EReal) shapeCasts_S256_S1x256 := by
    after_results <;> rfl
  rw [h]
  refine shapeCast_apply _ _ _ _ ?_
  show (S256.rowMajor (ix1 d)).val = (S1x256.rowMajor (ix2 0 d)).val
  rw [Shape.rowMajor_val_one, Shape.rowMajor_val_two]
  show d.val = 0 * 256 + d.val
  omega

/-- The value bias as a 1 × 256 row. -/
theorem pre_bv (d : Fin 256) :
    (StableHlo.after (hostOps0 (F := Ideal)) W (Proc.devRef .tc main_v6) : S1x256.Idx → EReal) (ix2 0 d)
      = (W (Proc.devRef .tc main_arg6) : S256.Idx → EReal) (ix1 d) := by
  have h : (StableHlo.after (hostOps0 (F := Ideal)) W (Proc.devRef .tc main_v6) : S1x256.Idx → EReal)
      = shapeCast S1x256 (W (Proc.devRef .tc main_arg6) : S256.Idx → EReal) shapeCasts_S256_S1x256 := by
    after_results <;> rfl
  rw [h]
  refine shapeCast_apply _ _ _ _ ?_
  show (S256.rowMajor (ix1 d)).val = (S1x256.rowMajor (ix2 0 d)).val
  rw [Shape.rowMajor_val_one, Shape.rowMajor_val_two]
  show d.val = 0 * 256 + d.val
  omega

/-- The queries back at 64 × 512 × 256. -/
theorem mid_q (b : Fin 64) (n : Fin 512) (d : Fin 256) :
    (StableHlo.after (hostOps1 (F := Ideal)) W (Proc.devRef .tc main_v8) : S64x512x256.Idx → EReal) (ix3 b n d)
      = (W (Proc.devRef .tc main_v7_0) : S32768x256.Idx → EReal) (ix2 (rowOf b n) d) := by
  have h : (StableHlo.after (hostOps1 (F := Ideal)) W (Proc.devRef .tc main_v8) : S64x512x256.Idx → EReal)
      = shapeCast S64x512x256 (W (Proc.devRef .tc main_v7_0) : S32768x256.Idx → EReal) shapeCasts_S32768x256_S64x512x256 := by
    after_results <;> rfl
  rw [h]
  refine shapeCast_apply _ _ _ _ ?_
  show (S32768x256.rowMajor (ix2 (rowOf b n) d)).val = (S64x512x256.rowMajor (ix3 b n d)).val
  rw [Shape.rowMajor_val_three, Shape.rowMajor_val_two]
  show (512 * b.val + n.val) * 256 + d.val = (b.val * 512 + n.val) * 256 + d.val
  omega

/-- The keys back at 64 × 512 × 256. -/
theorem mid_k (b : Fin 64) (n : Fin 512) (d : Fin 256) :
    (StableHlo.after (hostOps1 (F := Ideal)) W (Proc.devRef .tc main_v9) : S64x512x256.Idx → EReal) (ix3 b n d)
      = (W (Proc.devRef .tc main_v7_1) : S32768x256.Idx → EReal) (ix2 (rowOf b n) d) := by
  have h : (StableHlo.after (hostOps1 (F := Ideal)) W (Proc.devRef .tc main_v9) : S64x512x256.Idx → EReal)
      = shapeCast S64x512x256 (W (Proc.devRef .tc main_v7_1) : S32768x256.Idx → EReal) shapeCasts_S32768x256_S64x512x256 := by
    after_results <;> rfl
  rw [h]
  refine shapeCast_apply _ _ _ _ ?_
  show (S32768x256.rowMajor (ix2 (rowOf b n) d)).val = (S64x512x256.rowMajor (ix3 b n d)).val
  rw [Shape.rowMajor_val_three, Shape.rowMajor_val_two]
  show (512 * b.val + n.val) * 256 + d.val = (b.val * 512 + n.val) * 256 + d.val
  omega

/-- The values back at 64 × 512 × 256. -/
theorem mid_v (b : Fin 64) (n : Fin 512) (d : Fin 256) :
    (StableHlo.after (hostOps1 (F := Ideal)) W (Proc.devRef .tc main_v10) : S64x512x256.Idx → EReal) (ix3 b n d)
      = (W (Proc.devRef .tc main_v7_2) : S32768x256.Idx → EReal) (ix2 (rowOf b n) d) := by
  have h : (StableHlo.after (hostOps1 (F := Ideal)) W (Proc.devRef .tc main_v10) : S64x512x256.Idx → EReal)
      = shapeCast S64x512x256 (W (Proc.devRef .tc main_v7_2) : S32768x256.Idx → EReal) shapeCasts_S32768x256_S64x512x256 := by
    after_results <;> rfl
  rw [h]
  refine shapeCast_apply _ _ _ _ ?_
  show (S32768x256.rowMajor (ix2 (rowOf b n) d)).val = (S64x512x256.rowMajor (ix3 b n d)).val
  rw [Shape.rowMajor_val_three, Shape.rowMajor_val_two]
  show (512 * b.val + n.val) * 256 + d.val = (b.val * 512 + n.val) * 256 + d.val
  omega

end Cert.KernelIdeal.Hand

end
-- ==== Proof.Spec.lean ====
/-
  The mathematics both programs compute, on the extended reals, with every array a plain function of literal
  coordinates: x : 64 × 512 × 256, three weight matrices 256 × 256 and three bias rows of 256.

  * a projection row   p d = (∑ e, x e · W d e) + bias d;
  * its normalisation  (p d − mean p) scaled by the inverse root of (variance p + ε), the mean and the variance
    being sums over the 256 columns divided by 256 — written two ways: as a product with the reciprocal root
    (normMul) and as a quotient by the root (normDiv);
  * the scores         s b n m = (∑ d, Q b n d · K b m d) scaled by one sixteenth — a product with 1/16 (scoreMul)
    or a quotient by 16 (scoreDiv);
  * the weights        a softmax ALONG THE FIRST AXIS (the 64 entries b at fixed n, m): exp (s b − max) over the sum
    of those exponentials, the maximum a fold of max from −∞;
  * the result         o b n e = ∑ m, weight b n m · V b m e, the 512 keys summed either in one sum (outWhole) or
    as four consecutive tiles of 128 (outTiled).
  resultTiled is the product/reciprocal-root/tiled reading, resultWhole the quotient/root/one-sum reading.
-/
import Idealize.ShloMosaic.PureOps.Ideal
import Idealize.ShloMosaic.PureOps.Ideal.Laws

noncomputable section

namespace Cert.Attn

open Idealize.ShloMosaic
open scoped BigOperators

/-- The float words the two programs share, read as extended reals: 256, ε = f32(1e-5), 16, 1/16, −∞. -/
abbrev w256 : EReal := Ideal.ofBits .f32 0x43800000#32
abbrev wEps : EReal := Ideal.ofBits .f32 0x3727C5AC#32
abbrev w16 : EReal := Ideal.ofBits .f32 0x41800000#32
abbrev wSixteenth : EReal := Ideal.ofBits .f32 0x3D800000#32
abbrev wNegInf : EReal := Ideal.ofBits .f32 0xFF800000#32

/-- A rank-3 array of 64 × 512 × 256 extended reals, by coordinates. -/
abbrev Arr3 : Type := Fin 64 → Fin 512 → Fin 256 → EReal

/-- One row of a projection: column d is the row against row d of the weights, plus the bias. -/
def proj (x : Fin 256 → EReal) (W : Fin 256 → Fin 256 → EReal) (bias : Fin 256 → EReal) (d : Fin 256) : EReal :=
  (∑ e : Fin 256, x e * W d e) + bias d

/-- The mean of a row of 256. -/
def rowMean (v : Fin 256 → EReal) : EReal := Ideal.div (∑ d : Fin 256, v d) w256

/-- The (biased) variance of a row of 256. -/
def rowVar (v : Fin 256 → EReal) : EReal :=
  Ideal.div (∑ d : Fin 256, (v d - rowMean v) * (v d - rowMean v)) w256

/-- Normalisation as a product with the reciprocal root. -/
def normMul (v : Fin 256 → EReal) (d : Fin 256) : EReal :=
  (v d - rowMean v) * Ideal.rsqrt (rowVar v + wEps)

/-- Normalisation as a quotient by the root. -/
def normDiv (v : Fin 256 → EReal) (d : Fin 256) : EReal :=
  Ideal.div (v d - rowMean v) (Ideal.sqrt (rowVar v + wEps))

/-- Query row n against key row m of batch entry b. -/
def dotQK (Q K : Arr3) (b : Fin 64) (n m : Fin 512) : EReal := ∑ d : Fin 256, Q b n d * K b m d

def scoreMul (Q K : Arr3) (b : Fin 64) (n m : Fin 512) : EReal := dotQK Q K b n m * wSixteenth
def scoreDiv (Q K : Arr3) (b : Fin 64) (n m : Fin 512) : EReal := Ideal.div (dotQK Q K b n m) w16

/-- The maximum of a column of 64, folded from −∞. -/
def colMax (s : Fin 64 → EReal) : EReal := (Finset.univ : Finset (Fin 64)).fold max wNegInf s

/-- The softmax weight of entry b in a column of 64 scores. -/
def weight (s : Fin 64 → EReal) (b : Fin 64) : EReal :=
  Ideal.div (Ideal.exp (s b - colMax s)) (∑ b' : Fin 64, Ideal.exp (s b' - colMax s))

/-- Key 128·j + r: entry r of the j-th tile of 128 keys. -/
def keyOf (j : Fin 4) (r : Fin 128) : Fin 512 := ⟨128 * j.val + r.val, by omega⟩

/-- One tile's contribution to the result at (b, n, e), from scores scaled by the product. -/
def tileTerm (Q K V : Arr3) (b : Fin 64) (n : Fin 512) (e : Fin 256) (j : Fin 4) : EReal :=
  ∑ r : Fin 128, weight (fun b' => scoreMul Q K b' n (keyOf j r)) b * V b (keyOf j r) e

/-- The result as four tiles of keys. -/
def outTiled (Q K V : Arr3) (b : Fin 64) (n : Fin 512) (e : Fin 256) : EReal :=
  ∑ j : Fin 4, tileTerm Q K V b n e j

/-- The result as one sum over the keys, from scores scaled by the quotient. -/
def outWhole (Q K V : Arr3) (b : Fin 64) (n : Fin 512) (e : Fin 256) : EReal :=
  ∑ m : Fin 512, weight (fun b' => scoreDiv Q K b' n m) b * V b m e

/-- A normalised projection of x, the product reading. -/
def qkvMul (x : Arr3) (W : Fin 256 → Fin 256 → EReal) (bias : Fin 256 → EReal) : Arr3 :=
  fun b n d => normMul (proj (x b n) W bias) d

/-- A normalised projection of x, the quotient reading. -/
def qkvDiv (x : Arr3) (W : Fin 256 → Fin 256 → EReal) (bias : Fin 256 → EReal) : Arr3 :=
  fun b n d => normDiv (proj (x b n) W bias) d

def resultTiled (x : Arr3) (Wq : Fin 256 → Fin 256 → EReal) (bq : Fin 256 → EReal)
    (Wk : Fin 256 → Fin 256 → EReal) (bk : Fin 256 → EReal) (Wv : Fin 256 → Fin 256 → EReal) (bv : Fin 256 → EReal) : Arr3 :=
  outTiled (qkvMul x Wq bq) (qkvMul x Wk bk) (qkvMul x Wv bv)

def resultWhole (x : Arr3) (Wq : Fin 256 → Fin 256 → EReal) (bq : Fin 256 → EReal)
    (Wk : Fin 256 → Fin 256 → EReal) (bk : Fin 256 → EReal) (Wv : Fin 256 → Fin 256 → EReal) (bv : Fin 256 → EReal) : Arr3 :=
  outWhole (qkvDiv x Wq bq) (qkvDiv x Wk bk) (qkvDiv x Wv bv)

end Cert.Attn

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Val0Pay.lean ====
/-
  The arithmetic of the first region's body on the extended reals, read at an index: the projection block
  (row of the block against a column of the transposed matrix, plus the bias entry), and the row-by-row
  normalisation of a block (mean and variance over the 256 columns, each kept as a column and spread back over the
  row). The three output payloads are this one function of their operands.
-/
import proofs.«102405_j6794638262727_1_alg».proof.Proof.Gen.KernelIdeal.Skeleton
import proofs.«102405_j6794638262727_1_alg».proof.Proof.Spec
import proofs.«102405_j6794638262727_1_alg».proof.Proof.LibKeepdims
import proofs.«102405_j6794638262727_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## The projection block -/

/-- The row block against a matrix block plus the bias row, at (p, q): row p of the block against column q of the
    (transposed) matrix, plus entry q of the bias. The changes of float format are the identity on the extended reals. -/
theorem hc_proj_apply (x0 : FVec Ideal S2048x256 .f32) (w : FVec Ideal S256x256 .f32) (b : FVec Ideal S1x256 .f32)
    (p : Fin 2048) (q : Fin 256) :
    k0_pay3 (F := Ideal) x0 w b (ix2 p q)
      = Cert.Attn.proj (fun e => x0 (ix2 p e)) (fun d' e => w (ix2 e d')) (fun d' => b (ix2 0 d')) q := by
  have hx : shapeCast S2048x256 x0 shapeCasts_S2048x256_S2048x256 = x0 := shapeCast_self _ _
  have hw : shapeCast S256x256 w shapeCasts_S256x256_S256x256 = w := shapeCast_self _ _
  have hb : shapeCast S1x256 b shapeCasts_S1x256_S1x256 = b := shapeCast_self _ _
  unfold k0_pay3 k0_pay2 Cert.Attn.proj
  refine congrArg₂ (· + ·) ?_ ?_
  · refine (Cert.PlainDot.matmul_zero_apply 2048 256 256 none _ _ (ix2 p q)).trans ?_
    refine Finset.sum_congr rfl fun k _ => ?_
    exact congrArg₂ (· * ·) (congrFun hx (ix2 p k)) (congrFun hw (ix2 k q))
  · exact (broadcastTo_1b_ab_apply _ broadcasts_S1x256_S2048x256 p q).trans (congrFun hb (ix2 0 q))

/-- The three projection payloads are one function of their operands. -/
theorem hc_pay4_eq (x0 : Vec Ideal S2048x256 .f32) (w : Vec Ideal S256x256 .f32) (b : Vec Ideal S1x256 .f32) :
    k0_pay4 (F := Ideal) x0 w b = k0_pay3 x0 w b := rfl
theorem hc_pay5_eq (x0 : Vec Ideal S2048x256 .f32) (w : Vec Ideal S256x256 .f32) (b : Vec Ideal S1x256 .f32) :
    k0_pay5 (F := Ideal) x0 w b = k0_pay3 x0 w b := rfl

/-! ## The normalisation of a block, row by row -/

/-- The row means of a block, kept as a column. -/
def hc_meanCol (v : FVec Ideal S2048x256 .f32) : FVec Ideal S2048x1 .f32 :=
  divf (shapeCast S2048x1 (multiReduction (F := Ideal) .add [1] S2048 v 0x00000000#32 reduces_S2048x256_S2048 (.inl rfl) rfl) shapeCasts_S2048_S2048x1)
    (broadcast S2048x1 (Scalar.ofBits (F := Ideal) .f32 0x43800000#32))

/-- The block with each row's mean taken off. -/
def hc_centred (v : FVec Ideal S2048x256 .f32) : FVec Ideal S2048x256 .f32 :=
  subf v (broadcastTo S2048x256 (hc_meanCol v) broadcasts_S2048x1_S2048x256)

/-- The row variances of a block, kept as a column. -/
def hc_varCol (v : FVec Ideal S2048x256 .f32) : FVec Ideal S2048x1 .f32 :=
  divf (shapeCast S2048x1 (multiReduction (F := Ideal) .add [1] S2048 (mulf (hc_centred v) (hc_centred v)) 0x00000000#32 reduces_S2048x256_S2048 (.inl rfl) rfl) shapeCasts_S2048_S2048x1)
    (broadcast S2048x1 (Scalar.ofBits (F := Ideal) .f32 0x43800000#32))

/-- The reciprocal root of each row's variance plus ε, kept as a column. -/
def hc_rstdCol (v : FVec Ideal S2048x256 .f32) : FVec Ideal S2048x1 .f32 :=
  rsqrt (addf (hc_varCol v) (broadcast S2048x1 (Scalar.ofBits (F := Ideal) .f32 0x3727C5AC#32)))

/-- The normalised block. -/
def hc_norm (v : FVec Ideal S2048x256 .f32) : FVec Ideal S2048x256 .f32 :=
  mulf (hc_centred v) (broadcastTo S2048x256 (hc_rstdCol v) broadcasts_S2048x1_S2048x256)

theorem hc_meanCol_apply (v : FVec Ideal S2048x256 .f32) (p : Fin 2048) (u : Fin 1) :
    hc_meanCol v (ix2 p u) = Cert.Attn.rowMean (fun d => v (ix2 p d)) := by
  unfold hc_meanCol Cert.Attn.rowMean
  exact congrArg (Ideal.div · Cert.Attn.w256)
    ((Cert.Keepdims.shapeCast_a_a1_apply _ shapeCasts_S2048_S2048x1 p u).trans
      (Cert.Keepdims.sum_axis1_apply v 0x00000000#32 reduces_S2048x256_S2048 (.inl rfl) rfl p))

theorem hc_centred_apply (v : FVec Ideal S2048x256 .f32) (p : Fin 2048) (q : Fin 256) :
    hc_centred v (ix2 p q) = v (ix2 p q) - Cert.Attn.rowMean (fun d => v (ix2 p d)) := by
  unfold hc_centred
  exact congrArg (v (ix2 p q) - ·)
    ((Cert.Keepdims.broadcastTo_a1_ab_apply _ broadcasts_S2048x1_S2048x256 p q).trans (hc_meanCol_apply v p 0))

theorem hc_varCol_apply (v : FVec Ideal S2048x256 .f32) (p : Fin 2048) (u : Fin 1) :
    hc_varCol v (ix2 p u) = Cert.Attn.rowVar (fun d => v (ix2 p d)) := by
  unfold hc_varCol Cert.Attn.rowVar
  refine congrArg (Ideal.div · Cert.Attn.w256)
    ((Cert.Keepdims.shapeCast_a_a1_apply _ shapeCasts_S2048_S2048x1 p u).trans
      ((Cert.Keepdims.sum_axis1_apply _ 0x00000000#32 reduces_S2048x256_S2048 (.inl rfl) rfl p).trans ?_))
  refine Finset.sum_congr rfl fun k _ => ?_
  exact congrArg₂ (· * ·) (hc_centred_apply v p k) (hc_centred_apply v p k)

theorem hc_rstdCol_apply (v : FVec Ideal S2048x256 .f32) (p : Fin 2048) (u : Fin 1) :
    hc_rstdCol v (ix2 p u) = Ideal.rsqrt (Cert.Attn.rowVar (fun d => v (ix2 p d)) + Cert.Attn.wEps) := by
  unfold hc_rstdCol
  exact congrArg (fun z => Ideal.rsqrt (z + Cert.Attn.wEps)) (hc_varCol_apply v p u)

/-- The normalised block at (p, q) is the specification's normalisation of row p, at q. -/
theorem hc_norm_apply (v : FVec Ideal S2048x256 .f32) (p : Fin 2048) (q : Fin 256) :
    hc_norm v (ix2 p q) = Cert.Attn.normMul (fun d => v (ix2 p d)) q := by
  unfold hc_norm Cert.Attn.normMul
  exact congrArg₂ (· * ·) (hc_centred_apply v p q)
    ((Cert.Keepdims.broadcastTo_a1_ab_apply _ broadcasts_S2048x1_S2048x256 p q).trans (hc_rstdCol_apply v p 0))

/-! ## The printed payloads are these -/

theorem hc_pay6_eq (x0 : Vec Ideal S2048x256 .f32) (w : Vec Ideal S256x256 .f32) (b : Vec Ideal S1x256 .f32) :
    k0_pay6 (F := Ideal) x0 w b = hc_meanCol (k0_pay3 x0 w b) := rfl
theorem hc_pay7_eq (x0 : Vec Ideal S2048x256 .f32) (w : Vec Ideal S256x256 .f32) (b : Vec Ideal S1x256 .f32) :
    k0_pay7 (F := Ideal) x0 w b = hc_varCol (k0_pay3 x0 w b) := rfl
theorem hc_pay8_eq (v : FVec Ideal S2048x256 .f32) :
    k0_pay8 (F := Ideal) v (hc_meanCol v) (hc_varCol v) = hc_norm v := rfl
theorem hc_pay9_eq (v : FVec Ideal S2048x256 .f32) : k0_pay9 (F := Ideal) v = hc_norm v := rfl
theorem hc_pay1_eq (v : FVec Ideal S2048x256 .f32) :
    k0_pay1 (F := Ideal) (k0_pay11 v) (k0_pay12 v) = hc_norm v := rfl

/-! ## Each output's payload at an index -/

/-- A normalised projection block at (p, q). -/
theorem hc_normProj_apply (x0 : FVec Ideal S2048x256 .f32) (w : FVec Ideal S256x256 .f32) (b : FVec Ideal S1x256 .f32)
    (p : Fin 2048) (q : Fin 256) :
    hc_norm (k0_pay3 (F := Ideal) x0 w b) (ix2 p q)
      = Cert.Attn.normMul (Cert.Attn.proj (fun e => x0 (ix2 p e)) (fun d' e => w (ix2 e d')) (fun d' => b (ix2 0 d'))) q :=
  (hc_norm_apply _ p q).trans
    (congrArg (Cert.Attn.normMul · q) (funext fun d => hc_proj_apply x0 w b p d))

theorem hc_payOut7_apply (x0 : FVec Ideal S2048x256 .f32) (w : FVec Ideal S256x256 .f32) (b : FVec Ideal S1x256 .f32)
    (p : Fin 2048) (q : Fin 256) :
    k0_pay8 (F := Ideal) (k0_pay3 x0 w b) (k0_pay6 x0 w b) (k0_pay7 x0 w b) (ix2 p q)
      = Cert.Attn.normMul (Cert.Attn.proj (fun e => x0 (ix2 p e)) (fun d' e => w (ix2 e d')) (fun d' => b (ix2 0 d'))) q :=
  (congrFun (hc_pay8_eq (k0_pay3 x0 w b)) (ix2 p q)).trans (hc_normProj_apply x0 w b p q)

theorem hc_payOut8_apply (x0 : FVec Ideal S2048x256 .f32) (w : FVec Ideal S256x256 .f32) (b : FVec Ideal S1x256 .f32)
    (p : Fin 2048) (q : Fin 256) :
    k0_pay9 (F := Ideal) (k0_pay4 x0 w b) (ix2 p q)
      = Cert.Attn.normMul (Cert.Attn.proj (fun e => x0 (ix2 p e)) (fun d' e => w (ix2 e d')) (fun d' => b (ix2 0 d'))) q :=
  (congrFun (hc_pay9_eq (k0_pay3 x0 w b)) (ix2 p q)).trans (hc_normProj_apply x0 w b p q)

theorem hc_payOut9_apply (x0 : FVec Ideal S2048x256 .f32) (w : FVec Ideal S256x256 .f32) (b : FVec Ideal S1x256 .f32)
    (p : Fin 2048) (q : Fin 256) :
    k0_pay1 (F := Ideal) (k0_pay11 (k0_pay5 x0 w b)) (k0_pay12 (k0_pay5 x0 w b)) (ix2 p q)
      = Cert.Attn.normMul (Cert.Attn.proj (fun e => x0 (ix2 p e)) (fun d' e => w (ix2 e d')) (fun d' => b (ix2 0 d'))) q :=
  (congrFun (hc_pay1_eq (k0_pay3 x0 w b)) (ix2 p q)).trans (hc_normProj_apply x0 w b p q)

end Cert.KernelIdeal.Hand

end
-- ==== Proof.Val0.lean ====
/-
  The three output arrays after the first region, as whole-array functions of what the region found. What a grid
  point writes back of an output is the view-read, at that point's block, of one function of the row array, a
  (transposed) weight matrix and a bias row: row r of the result is the normalisation, over its 256 columns, of row r of
  the input against the matrix plus the bias. Point t's blocks are rows 2048 t … 2048 t + 2047 (a block's coordinate
  is the block index times the block size plus the coordinate inside the block; the matrices and biases are whole at
  every point), and the 16 blocks cover the 32768 rows, so each output array ends holding that function.
-/
import proofs.«102405_j6794638262727_1_alg».proof.Proof.Body0
import proofs.«102405_j6794638262727_1_alg».proof.Proof.Val0Pay
import proofs.«102405_j6794638262727_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)
open scoped BigOperators

variable (V : (c : Dev nD) → (b : Ref sig .tc) → Buf (Elt Ideal) ((c : Thread nD τ).loc b))

theorem hc_hz : (![0, 0] : Fin 2 → Nat) = fun _ => 0 := funext fun a => by fin_cases a <;> rfl

/-- A normalised projection of the whole 32768-row array, index by index: row (i 0) against the transposed matrix
    plus the bias, normalised over its 256 columns, at column (i 1). -/
def hc_G (X : S32768x256.Idx → EReal) (W : S256x256.Idx → EReal) (B : S1x256.Idx → EReal) : S32768x256.Idx → EReal :=
  fun i => Cert.Attn.normMul (Cert.Attn.proj (fun e => X (ix2 (i 0) e)) (fun d' e => W (ix2 e d')) (fun d' => B (ix2 0 d'))) (i 1)

/-- The normalisation of a projection whose row, matrix and bias are those the whole-array function reads at k. -/
theorem hc_G_of_rows (X : S32768x256.Idx → EReal) (W : S256x256.Idx → EReal) (B : S1x256.Idx → EReal)
    (xr : Fin 256 → EReal) (wm : Fin 256 → Fin 256 → EReal) (bv : Fin 256 → EReal) (k : S32768x256.Idx) (q : Fin 256)
    (hx : ∀ e, xr e = X (ix2 (k 0) e)) (hw : ∀ d' e, wm d' e = W (ix2 e d')) (hb : ∀ d', bv d' = B (ix2 0 d')) (hq : k 1 = q) :
    Cert.Attn.normMul (Cert.Attn.proj xr wm bv) q = hc_G X W B k := by
  subst hq
  have e1 : xr = fun e => X (ix2 (k 0) e) := funext hx
  have e2 : wm = fun d' e => W (ix2 e d') := funext fun d' => funext (hw d')
  have e3 : bv = fun d' => B (ix2 0 d') := funext hb
  subst e1 e2 e3
  rfl

/-! ## The printed index maps, decided over the 16 points -/

/-- The row window sits on row block t. -/
theorem hc_idx_0 : ∀ t : Fin cfg0.N, win0_0.index t (0 : Fin 2) = t.val ∧ win0_0.index t (1 : Fin 2) = 0 :=
  (by decide +kernel : ∀ t : Fin grid0.N, _)
/-- Window 1 is its whole array at every point. -/
theorem hc_idx_1 : ∀ t : Fin cfg0.N, win0_1.index t (0 : Fin 2) = 0 ∧ win0_1.index t (1 : Fin 2) = 0 :=
  (by decide +kernel : ∀ t : Fin grid0.N, _)
/-- Window 2 is its whole array at every point. -/
theorem hc_idx_2 : ∀ t : Fin cfg0.N, win0_2.index t (0 : Fin 2) = 0 ∧ win0_2.index t (1 : Fin 2) = 0 :=
  (by decide +kernel : ∀ t : Fin grid0.N, _)
/-- Window 3 is its whole array at every point. -/
theorem hc_idx_3 : ∀ t : Fin cfg0.N, win0_3.index t (0 : Fin 2) = 0 ∧ win0_3.index t (1 : Fin 2) = 0 :=
  (by decide +kernel : ∀ t : Fin grid0.N, _)
/-- Window 4 is its whole array at every point. -/
theorem hc_idx_4 : ∀ t : Fin cfg0.N, win0_4.index t (0 : Fin 2) = 0 ∧ win0_4.index t (1 : Fin 2) = 0 :=
  (by decide +kernel : ∀ t : Fin grid0.N, _)
/-- Window 5 is its whole array at every point. -/
theorem hc_idx_5 : ∀ t : Fin cfg0.N, win0_5.index t (0 : Fin 2) = 0 ∧ win0_5.index t (1 : Fin 2) = 0 :=
  (by decide +kernel : ∀ t : Fin grid0.N, _)
/-- Window 6 is its whole array at every point. -/
theorem hc_idx_6 : ∀ t : Fin cfg0.N, win0_6.index t (0 : Fin 2) = 0 ∧ win0_6.index t (1 : Fin 2) = 0 :=
  (by decide +kernel : ∀ t : Fin grid0.N, _)
/-- Output window 7 sits on row block t. -/
theorem hc_idx_7 : ∀ t : Fin cfg0.N, win0_7.index t (0 : Fin 2) = t.val ∧ win0_7.index t (1 : Fin 2) = 0 :=
  (by decide +kernel : ∀ t : Fin grid0.N, _)
/-- Output window 8 sits on row block t. -/
theorem hc_idx_8 : ∀ t : Fin cfg0.N, win0_8.index t (0 : Fin 2) = t.val ∧ win0_8.index t (1 : Fin 2) = 0 :=
  (by decide +kernel : ∀ t : Fin grid0.N, _)
/-- Output window 9 sits on row block t. -/
theorem hc_idx_9 : ∀ t : Fin cfg0.N, win0_9.index t (0 : Fin 2) = t.val ∧ win0_9.index t (1 : Fin 2) = 0 :=
  (by decide +kernel : ∀ t : Fin grid0.N, _)

/-! ## The input blocks, read off their arrays -/

/-- Row block t of the row array is its rows 2048 t … 2048 t + 2047. -/
theorem hc_iblk_0 (c : Dev nD) (t : Fin cfg0.N) (p : Fin 2048) (e : Fin 256) (r : Fin 32768) (hr : r.val = 2048 * t.val + p.val) :
    iblk0 V c 0 t (ix2 p e) = V c main_v0 (ix2 r e) := by
  obtain ⟨e0, e1⟩ := hc_idx_0 t
  show V c main_v0 (((cfg0.win 0).blk t).view.emb (ix2 p e)) = V c main_v0 (ix2 r e)
  refine congrArg (V c main_v0) (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * e.val = e.val; rw [e1]; omega
/-- The matrix block of window 1 is the whole matrix. -/
theorem hc_iblk_1 (c : Dev nD) (t : Fin cfg0.N) (a' : Fin 256) (b' : Fin 256) :
    iblk0 V c 1 t (ix2 a' b') = V c main_v1 (ix2 a' b') := by
  obtain ⟨e0, e1⟩ := hc_idx_1 t
  show V c main_v1 (((cfg0.win 1).blk t).view.emb (ix2 a' b')) = V c main_v1 (ix2 a' b')
  refine congrArg (V c main_v1) (funext fun a => Fin.ext ?_)
  match a with
  | ⟨0, _⟩ => show win0_1.index t (0 : Fin 2) * 256 + 1 * a'.val = a'.val; rw [e0]; omega
  | ⟨1, _⟩ => show win0_1.index t (1 : Fin 2) * 256 + 1 * b'.val = b'.val; rw [e1]; omega
/-- The matrix block of window 3 is the whole matrix. -/
theorem hc_iblk_3 (c : Dev nD) (t : Fin cfg0.N) (a' : Fin 256) (b' : Fin 256) :
    iblk0 V c 3 t (ix2 a' b') = V c main_v2 (ix2 a' b') := by
  obtain ⟨e0, e1⟩ := hc_idx_3 t
  show V c main_v2 (((cfg0.win 3).blk t).view.emb (ix2 a' b')) = V c main_v2 (ix2 a' b')
  refine congrArg (V c main_v2) (funext fun a => Fin.ext ?_)
  match a with
  | ⟨0, _⟩ => show win0_3.index t (0 : Fin 2) * 256 + 1 * a'.val = a'.val; rw [e0]; omega
  | ⟨1, _⟩ => show win0_3.index t (1 : Fin 2) * 256 + 1 * b'.val = b'.val; rw [e1]; omega
/-- The matrix block of window 5 is the whole matrix. -/
theorem hc_iblk_5 (c : Dev nD) (t : Fin cfg0.N) (a' : Fin 256) (b' : Fin 256) :
    iblk0 V c 5 t (ix2 a' b') = V c main_v3 (ix2 a' b') := by
  obtain ⟨e0, e1⟩ := hc_idx_5 t
  show V c main_v3 (((cfg0.win 5).blk t).view.emb (ix2 a' b')) = V c main_v3 (ix2 a' b')
  refine congrArg (V c main_v3) (funext fun a => Fin.ext ?_)
  match a with
  | ⟨0, _⟩ => show win0_5.index t (0 : Fin 2) * 256 + 1 * a'.val = a'.val; rw [e0]; omega
  | ⟨1, _⟩ => show win0_5.index t (1 : Fin 2) * 256 + 1 * b'.val = b'.val; rw [e1]; omega
/-- The bias block of window 2 is the whole bias row. -/
theorem hc_iblk_2 (c : Dev nD) (t : Fin cfg0.N) (a' : Fin 1) (b' : Fin 256) :
    iblk0 V c 2 t (ix2 a' b') = V c main_v4 (ix2 a' b') := by
  obtain ⟨e0, e1⟩ := hc_idx_2 t
  show V c main_v4 (((cfg0.win 2).blk t).view.emb (ix2 a' b')) = V c main_v4 (ix2 a' b')
  refine congrArg (V c main_v4) (funext fun a => Fin.ext ?_)
  match a with
  | ⟨0, _⟩ => show win0_2.index t (0 : Fin 2) * 1 + 1 * a'.val = a'.val; rw [e0]; omega
  | ⟨1, _⟩ => show win0_2.index t (1 : Fin 2) * 256 + 1 * b'.val = b'.val; rw [e1]; omega
/-- The bias block of window 4 is the whole bias row. -/
theorem hc_iblk_4 (c : Dev nD) (t : Fin cfg0.N) (a' : Fin 1) (b' : Fin 256) :
    iblk0 V c 4 t (ix2 a' b') = V c main_v5 (ix2 a' b') := by
  obtain ⟨e0, e1⟩ := hc_idx_4 t
  show V c main_v5 (((cfg0.win 4).blk t).view.emb (ix2 a' b')) = V c main_v5 (ix2 a' b')
  refine congrArg (V c main_v5) (funext fun a => Fin.ext ?_)
  match a with
  | ⟨0, _⟩ => show win0_4.index t (0 : Fin 2) * 1 + 1 * a'.val = a'.val; rw [e0]; omega
  | ⟨1, _⟩ => show win0_4.index t (1 : Fin 2) * 256 + 1 * b'.val = b'.val; rw [e1]; omega
/-- The bias block of window 6 is the whole bias row. -/
theorem hc_iblk_6 (c : Dev nD) (t : Fin cfg0.N) (a' : Fin 1) (b' : Fin 256) :
    iblk0 V c 6 t (ix2 a' b') = V c main_v6 (ix2 a' b') := by
  obtain ⟨e0, e1⟩ := hc_idx_6 t
  show V c main_v6 (((cfg0.win 6).blk t).view.emb (ix2 a' b')) = V c main_v6 (ix2 a' b')
  refine congrArg (V c main_v6) (funext fun a => Fin.ext ?_)
  match a with
  | ⟨0, _⟩ => show win0_6.index t (0 : Fin 2) * 1 + 1 * a'.val = a'.val; rw [e0]; omega
  | ⟨1, _⟩ => show win0_6.index t (1 : Fin 2) * 256 + 1 * b'.val = b'.val; rw [e1]; omega

/-! ## Output window 7 -/

/-- What point t writes back of output 7 is block t of the whole-array function of the arrays the region found. -/
theorem hc_flushed_7 (c : Dev nD) (t : Fin cfg0.N) :
    (dat0 (F := Ideal) V c).flushed 7 t = ((cfg0.win 7).blk t).view.read (Elt Ideal) (hc_G (V c main_v0) (V c main_v1) (V c main_v4)) := by
  show (cfg0.win 7).cut (grid0.coords t) ((dat0 (F := Ideal) V c).after 7 t) = _
  rw [after0_7]
  unfold out0_7
  rw [View.canon_unit_zero hc_hz]
  simp only [View.ld_unit_zero (S := S2048x256) hc_hz, View.ld_unit_zero (S := S256x256) hc_hz, View.ld_unit_zero (S := S1x256) hc_hz]
  funext j
  obtain ⟨p, q, rfl⟩ : ∃ (p : Fin 2048) (q : Fin 256), j = ix2 p q := ⟨j 0, j 1, eq_ix2 j⟩
  obtain ⟨e0, e1⟩ := hc_idx_7 t
  have hk0 : ((((cfg0.win 7).blk t).view.emb (ix2 p q)) (0 : Fin 2)).val = 2048 * t.val + p.val := by
    show win0_7.index t (0 : Fin 2) * 2048 + 1 * p.val = _; rw [e0]; omega
  have hk1 : ((((cfg0.win 7).blk t).view.emb (ix2 p q)) (1 : Fin 2)).val = q.val := by
    show win0_7.index t (1 : Fin 2) * 256 + 1 * q.val = _; rw [e1]; omega
  refine (hc_payOut7_apply (iblk0 V c 0 t) (iblk0 V c 1 t) (iblk0 V c 2 t) p q).trans ?_
  exact hc_G_of_rows (V c main_v0) (V c main_v1) (V c main_v4) _ _ _ (((cfg0.win 7).blk t).view.emb (ix2 p q)) q
    (fun e => hc_iblk_0 V c t p e _ hk0) (fun d' e => hc_iblk_1 V c t e d') (fun d' => hc_iblk_2 V c t 0 d') (Fin.ext hk1)

/-- An index of the array is in point t's block iff each coordinate is in the block's range on its axis. -/
theorem hc_mem_blk_7 (t : Fin cfg0.N) (i : S32768x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v7_0).slice (win0_7.rect t)).set ↔ _
  rw [View.set_slice_whole, Rect.mem_set_unit]
  exact Iff.rfl

/-- The 16 blocks of 2048 rows cover the 32768 rows: row r is in block r / 2048. -/
theorem hc_cover_7 (i : S32768x256.Idx) : ∃ t : Fin cfg0.N, (cfg0.win 7).flush t = true ∧ i ∈ ((cfg0.win 7).blk t).view.set := by
  have hi0 : (i 0).val < 32768 := (i 0).isLt
  have hi1 : (i 1).val < 256 := (i 1).isLt
  have hN : cfg0.N = 16 := N_0
  refine ⟨⟨(i 0).val / 2048, by omega⟩, flush0_7 _, ?_⟩
  rw [hc_mem_blk_7]
  obtain ⟨e0, e1⟩ := hc_idx_7 ⟨(i 0).val / 2048, by omega⟩
  intro a
  match a with
  | ⟨0, _⟩ =>
    show win0_7.index ⟨(i 0).val / 2048, _⟩ (0 : Fin 2) * 2048 ≤ (i 0).val ∧ (i 0).val < win0_7.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, _⟩ (1 : Fin 2) * 256 ≤ (i 1).val ∧ (i 1).val < win0_7.index ⟨(i 0).val / 2048, _⟩ (1 : Fin 2) * 256 + 256
    rw [e1]; omega

/-- Output 7 after the region, as one function of the arrays the region found. -/
theorem final0_7 (V : (c : Dev nD) → (b : Ref sig .tc) → Buf (Elt Ideal) ((c : Thread nD τ).loc b)) (c : Dev nD) (r : Fin 32768) (d : Fin 256) :
    (dat0 (F := Ideal) V c).arrAt 7 cfg0.N (ix2 r d)
      = Cert.Attn.normMul (Cert.Attn.proj (fun e => V c main_v0 (ix2 r e)) (fun d' e => V c main_v1 (ix2 e d')) (fun d' => V c main_v4 (ix2 0 d'))) d :=
  congrFun ((dat0 (F := Ideal) V c).arrAt_eq_of_cover 7 (hc_G (V c main_v0) (V c main_v1) (V c main_v4))
    (fun t _ => hc_flushed_7 V c t) hc_cover_7) (ix2 r d)

/-! ## Output window 8 -/

/-- What point t writes back of output 8 is block t of the whole-array function of the arrays the region found. -/
theorem hc_flushed_8 (c : Dev nD) (t : Fin cfg0.N) :
    (dat0 (F := Ideal) V c).flushed 8 t = ((cfg0.win 8).blk t).view.read (Elt Ideal) (hc_G (V c main_v0) (V c main_v2) (V c main_v5)) := by
  show (cfg0.win 8).cut (grid0.coords t) ((dat0 (F := Ideal) V c).after 8 t) = _
  rw [after0_8]
  unfold out0_8
  rw [View.canon_unit_zero hc_hz]
  simp only [View.ld_unit_zero (S := S2048x256) hc_hz, View.ld_unit_zero (S := S256x256) hc_hz, View.ld_unit_zero (S := S1x256) hc_hz]
  funext j
  obtain ⟨p, q, rfl⟩ : ∃ (p : Fin 2048) (q : Fin 256), j = ix2 p q := ⟨j 0, j 1, eq_ix2 j⟩
  obtain ⟨e0, e1⟩ := hc_idx_8 t
  have hk0 : ((((cfg0.win 8).blk t).view.emb (ix2 p q)) (0 : Fin 2)).val = 2048 * t.val + p.val := by
    show win0_8.index t (0 : Fin 2) * 2048 + 1 * p.val = _; rw [e0]; omega
  have hk1 : ((((cfg0.win 8).blk t).view.emb (ix2 p q)) (1 : Fin 2)).val = q.val := by
    show win0_8.index t (1 : Fin 2) * 256 + 1 * q.val = _; rw [e1]; omega
  refine (hc_payOut8_apply (iblk0 V c 0 t) (iblk0 V c 3 t) (iblk0 V c 4 t) p q).trans ?_
  exact hc_G_of_rows (V c main_v0) (V c main_v2) (V c main_v5) _ _ _ (((cfg0.win 8).blk t).view.emb (ix2 p q)) q
    (fun e => hc_iblk_0 V c t p e _ hk0) (fun d' e => hc_iblk_3 V c t e d') (fun d' => hc_iblk_4 V c t 0 d') (Fin.ext hk1)

/-- An index of the array is in point t's block iff each coordinate is in the block's range on its axis. -/
theorem hc_mem_blk_8 (t : Fin cfg0.N) (i : S32768x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v7_1).slice (win0_8.rect t)).set ↔ _
  rw [View.set_slice_whole, Rect.mem_set_unit]
  exact Iff.rfl

/-- The 16 blocks of 2048 rows cover the 32768 rows: row r is in block r / 2048. -/
theorem hc_cover_8 (i : S32768x256.Idx) : ∃ t : Fin cfg0.N, (cfg0.win 8).flush t = true ∧ i ∈ ((cfg0.win 8).blk t).view.set := by
  have hi0 : (i 0).val < 32768 := (i 0).isLt
  have hi1 : (i 1).val < 256 := (i 1).isLt
  have hN : cfg0.N = 16 := N_0
  refine ⟨⟨(i 0).val / 2048, by omega⟩, flush0_8 _, ?_⟩
  rw [hc_mem_blk_8]
  obtain ⟨e0, e1⟩ := hc_idx_8 ⟨(i 0).val / 2048, by omega⟩
  intro a
  match a with
  | ⟨0, _⟩ =>
    show win0_8.index ⟨(i 0).val / 2048, _⟩ (0 : Fin 2) * 2048 ≤ (i 0).val ∧ (i 0).val < win0_8.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win0_8.index ⟨(i 0).val / 2048, _⟩ (1 : Fin 2) * 256 ≤ (i 1).val ∧ (i 1).val < win0_8.index ⟨(i 0).val / 2048, _⟩ (1 : Fin 2) * 256 + 256
    rw [e1]; omega

/-- Output 8 after the region, as one function of the arrays the region found. -/
theorem final0_8 (V : (c : Dev nD) → (b : Ref sig .tc) → Buf (Elt Ideal) ((c : Thread nD τ).loc b)) (c : Dev nD) (r : Fin 32768) (d : Fin 256) :
    (dat0 (F := Ideal) V c).arrAt 8 cfg0.N (ix2 r d)
      = Cert.Attn.normMul (Cert.Attn.proj (fun e => V c main_v0 (ix2 r e)) (fun d' e => V c main_v2 (ix2 e d')) (fun d' => V c main_v5 (ix2 0 d'))) d :=
  congrFun ((dat0 (F := Ideal) V c).arrAt_eq_of_cover 8 (hc_G (V c main_v0) (V c main_v2) (V c main_v5))
    (fun t _ => hc_flushed_8 V c t) hc_cover_8) (ix2 r d)

/-! ## Output window 9 -/

/-- What point t writes back of output 9 is block t of the whole-array function of the arrays the region found. -/
theorem hc_flushed_9 (c : Dev nD) (t : Fin cfg0.N) :
    (dat0 (F := Ideal) V c).flushed 9 t = ((cfg0.win 9).blk t).view.read (Elt Ideal) (hc_G (V c main_v0) (V c main_v3) (V c main_v6)) := by
  show (cfg0.win 9).cut (grid0.coords t) ((dat0 (F := Ideal) V c).after 9 t) = _
  rw [after0_9]
  unfold out0_9
  rw [View.canon_unit_zero hc_hz]
  simp only [View.ld_unit_zero (S := S2048x256) hc_hz, View.ld_unit_zero (S := S256x256) hc_hz, View.ld_unit_zero (S := S1x256) hc_hz]
  funext j
  obtain ⟨p, q, rfl⟩ : ∃ (p : Fin 2048) (q : Fin 256), j = ix2 p q := ⟨j 0, j 1, eq_ix2 j⟩
  obtain ⟨e0, e1⟩ := hc_idx_9 t
  have hk0 : ((((cfg0.win 9).blk t).view.emb (ix2 p q)) (0 : Fin 2)).val = 2048 * t.val + p.val := by
    show win0_9.index t (0 : Fin 2) * 2048 + 1 * p.val = _; rw [e0]; omega
  have hk1 : ((((cfg0.win 9).blk t).view.emb (ix2 p q)) (1 : Fin 2)).val = q.val := by
    show win0_9.index t (1 : Fin 2) * 256 + 1 * q.val = _; rw [e1]; omega
  refine (hc_payOut9_apply (iblk0 V c 0 t) (iblk0 V c 5 t) (iblk0 V c 6 t) p q).trans ?_
  exact hc_G_of_rows (V c main_v0) (V c main_v3) (V c main_v6) _ _ _ (((cfg0.win 9).blk t).view.emb (ix2 p q)) q
    (fun e => hc_iblk_0 V c t p e _ hk0) (fun d' e => hc_iblk_5 V c t e d') (fun d' => hc_iblk_6 V c t 0 d') (Fin.ext hk1)

/-- An index of the array is in point t's block iff each coordinate is in the block's range on its axis. -/
theorem hc_mem_blk_9 (t : Fin cfg0.N) (i : S32768x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v7_2).slice (win0_9.rect t)).set ↔ _
  rw [View.set_slice_whole, Rect.mem_set_unit]
  exact Iff.rfl

/-- The 16 blocks of 2048 rows cover the 32768 rows: row r is in block r / 2048. -/
theorem hc_cover_9 (i : S32768x256.Idx) : ∃ t : Fin cfg0.N, (cfg0.win 9).flush t = true ∧ i ∈ ((cfg0.win 9).blk t).view.set := by
  have hi0 : (i 0).val < 32768 := (i 0).isLt
  have hi1 : (i 1).val < 256 := (i 1).isLt
  have hN : cfg0.N = 16 := N_0
  refine ⟨⟨(i 0).val / 2048, by omega⟩, flush0_9 _, ?_⟩
  rw [hc_mem_blk_9]
  obtain ⟨e0, e1⟩ := hc_idx_9 ⟨(i 0).val / 2048, by omega⟩
  intro a
  match a with
  | ⟨0, _⟩ =>
    show win0_9.index ⟨(i 0).val / 2048, _⟩ (0 : Fin 2) * 2048 ≤ (i 0).val ∧ (i 0).val < win0_9.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win0_9.index ⟨(i 0).val / 2048, _⟩ (1 : Fin 2) * 256 ≤ (i 1).val ∧ (i 1).val < win0_9.index ⟨(i 0).val / 2048, _⟩ (1 : Fin 2) * 256 + 256
    rw [e1]; omega

/-- Output 9 after the region, as one function of the arrays the region found. -/
theorem final0_9 (V : (c : Dev nD) → (b : Ref sig .tc) → Buf (Elt Ideal) ((c : Thread nD τ).loc b)) (c : Dev nD) (r : Fin 32768) (d : Fin 256) :
    (dat0 (F := Ideal) V c).arrAt 9 cfg0.N (ix2 r d)
      = Cert.Attn.normMul (Cert.Attn.proj (fun e => V c main_v0 (ix2 r e)) (fun d' e => V c main_v3 (ix2 e d')) (fun d' => V c main_v6 (ix2 0 d'))) d :=
  congrFun ((dat0 (F := Ideal) V c).arrAt_eq_of_cover 9 (hc_G (V c main_v0) (V c main_v3) (V c main_v6))
    (fun t _ => hc_flushed_9 V c t) hc_cover_9) (ix2 r d)

end Cert.KernelIdeal.Hand

end
-- ==== Proof.Val1Pay.lean ====
/-
  The accumulation step of the second region read at one element, on the extended reals: the block the body
  stores is the accumulator's element plus, summed over the tile's 128 keys, the softmax weight of the scaled
  score (the softmax taken along the first axis, over the 64 entries at a fixed query row and key) times the
  value's element; and the reset block is zero everywhere.
-/
import proofs.«102405_j6794638262727_1_alg».proof.Proof.Gen.KernelIdeal.Skeleton
import proofs.«102405_j6794638262727_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- The two contractions' dimension numbers: queries against keys over the 256 columns, weights against values
    over the tile's 128 keys; the first axis is the batch axis of both. -/
abbrev hd_D1 : DotDims S64x64x256 S64x128x256 S64x64x128 := dot_S64x64x256_S64x128x256_S64x64x128_2_2_1_1_0_0
abbrev hd_D2 : DotDims S64x64x128 S64x128x256 S64x64x256 := dot_S64x64x128_S64x128x256_S64x64x256_2_1_1_2_0_0

/-! ## The operand indices of the two contractions, axis by axis -/

theorem hd_d1_lhs0 (i : S64x64x128.Idx) (κ : hd_D1.contr.Idx) : (hd_D1.lhsIdx i κ 0).val = (i 0).val := by
  unfold DotDims.lhsIdx
  rw [dif_pos (show (0 : Fin S64x64x256.rank) ∈ hd_D1.lhsBatch by decide)]
  rfl
theorem hd_d1_lhs1 (i : S64x64x128.Idx) (κ : hd_D1.contr.Idx) : (hd_D1.lhsIdx i κ 1).val = (i 1).val := by
  unfold DotDims.lhsIdx
  rw [dif_neg (show ¬(1 : Fin S64x64x256.rank) ∈ hd_D1.lhsBatch by decide), dif_pos (show (1 : Fin S64x64x256.rank) ∈ hd_D1.lhsNonContracting by decide)]
  rfl
theorem hd_d1_lhs2 (i : S64x64x128.Idx) (κ : hd_D1.contr.Idx) : (hd_D1.lhsIdx i κ 2).val = (κ ⟨0, by decide⟩).val :=
  hd_D1.lhsIdx_val_of_single rfl i κ
theorem hd_d1_rhs0 (i : S64x64x128.Idx) (κ : hd_D1.contr.Idx) : (hd_D1.rhsIdx i κ 0).val = (i 0).val := by
  unfold DotDims.rhsIdx
  rw [dif_pos (show (0 : Fin S64x128x256.rank) ∈ hd_D1.rhsBatch by decide)]
  rfl
theorem hd_d1_rhs1 (i : S64x64x128.Idx) (κ : hd_D1.contr.Idx) : (hd_D1.rhsIdx i κ 1).val = (i 2).val := by
  unfold DotDims.rhsIdx
  rw [dif_neg (show ¬(1 : Fin S64x128x256.rank) ∈ hd_D1.rhsBatch by decide), dif_pos (show (1 : Fin S64x128x256.rank) ∈ hd_D1.rhsNonContracting by decide)]
  rfl
theorem hd_d1_rhs2 (i : S64x64x128.Idx) (κ : hd_D1.contr.Idx) : (hd_D1.rhsIdx i κ 2).val = (κ ⟨0, by decide⟩).val :=
  hd_D1.rhsIdx_val_of_single rfl i κ

theorem hd_d2_lhs0 (i : S64x64x256.Idx) (κ : hd_D2.contr.Idx) : (hd_D2.lhsIdx i κ 0).val = (i 0).val := by
  unfold DotDims.lhsIdx
  rw [dif_pos (show (0 : Fin S64x64x128.rank) ∈ hd_D2.lhsBatch by decide)]
  rfl
theorem hd_d2_lhs1 (i : S64x64x256.Idx) (κ : hd_D2.contr.Idx) : (hd_D2.lhsIdx i κ 1).val = (i 1).val := by
  unfold DotDims.lhsIdx
  rw [dif_neg (show ¬(1 : Fin S64x64x128.rank) ∈ hd_D2.lhsBatch by decide), dif_pos (show (1 : Fin S64x64x128.rank) ∈ hd_D2.lhsNonContracting by decide)]
  rfl
theorem hd_d2_lhs2 (i : S64x64x256.Idx) (κ : hd_D2.contr.Idx) : (hd_D2.lhsIdx i κ 2).val = (κ ⟨0, by decide⟩).val :=
  hd_D2.lhsIdx_val_of_single rfl i κ
theorem hd_d2_rhs0 (i : S64x64x256.Idx) (κ : hd_D2.contr.Idx) : (hd_D2.rhsIdx i κ 0).val = (i 0).val := by
  unfold DotDims.rhsIdx
  rw [dif_pos (show (0 : Fin S64x128x256.rank) ∈ hd_D2.rhsBatch by decide)]
  rfl
theorem hd_d2_rhs1 (i : S64x64x256.Idx) (κ : hd_D2.contr.Idx) : (hd_D2.rhsIdx i κ 1).val = (κ ⟨0, by decide⟩).val :=
  hd_D2.rhsIdx_val_of_single rfl i κ
theorem hd_d2_rhs2 (i : S64x64x256.Idx) (κ : hd_D2.contr.Idx) : (hd_D2.rhsIdx i κ 2).val = (i 2).val := by
  unfold DotDims.rhsIdx
  rw [dif_neg (show ¬(2 : Fin S64x128x256.rank) ∈ hd_D2.rhsBatch by decide), dif_pos (show (2 : Fin S64x128x256.rank) ∈ hd_D2.rhsNonContracting by decide)]
  rfl

/-! ## The two contractions at an index -/

/-- Row p of batch entry b of the left operand against row m of the same batch entry of the right one. -/
theorem hd_dot1_apply (l : FVec Ideal S64x64x256 .bf16) (r : FVec Ideal S64x128x256 .bf16) (b p : Fin 64) (m : Fin 128) :
    matmul hd_D1 none l r (constant S64x64x128 .f32 0x00000000#32) (ix3 b p m) = ∑ d : Fin 256, l (ix3 b p d) * r (ix3 b m d) := by
  refine (Ideal.matmul_constant_zero_apply hd_D1 none l r (ix3 b p m)).trans ?_
  rw [← Equiv.sum_comp (contrEquiv1 hd_D1 256 rfl rfl).symm]
  refine Finset.sum_congr rfl fun d _ => ?_
  have hk := contrEquiv1_symm_val hd_D1 256 rfl rfl d
  have el : hd_D1.lhsIdx (ix3 b p m) ((contrEquiv1 hd_D1 256 rfl rfl).symm d) = ix3 b p d := funext fun a => Fin.ext (by
    match a with
    | ⟨0, _⟩ => exact hd_d1_lhs0 _ _
    | ⟨1, _⟩ => exact hd_d1_lhs1 _ _
    | ⟨2, _⟩ => exact (hd_d1_lhs2 _ _).trans hk)
  have er : hd_D1.rhsIdx (ix3 b p m) ((contrEquiv1 hd_D1 256 rfl rfl).symm d) = ix3 b m d := funext fun a => Fin.ext (by
    match a with
    | ⟨0, _⟩ => exact hd_d1_rhs0 _ _
    | ⟨1, _⟩ => exact hd_d1_rhs1 _ _
    | ⟨2, _⟩ => exact (hd_d1_rhs2 _ _).trans hk)
  rw [el, er]

/-- Row p of batch entry b of the left operand against column e of the same batch entry of the right one. -/
theorem hd_dot2_apply (l : FVec Ideal S64x64x128 .bf16) (r : FVec Ideal S64x128x256 .bf16) (b p : Fin 64) (e : Fin 256) :
    matmul hd_D2 none l r (constant S64x64x256 .f32 0x00000000#32) (ix3 b p e) = ∑ m : Fin 128, l (ix3 b p m) * r (ix3 b m e) := by
  refine (Ideal.matmul_constant_zero_apply hd_D2 none l r (ix3 b p e)).trans ?_
  rw [← Equiv.sum_comp (contrEquiv1 hd_D2 128 rfl rfl).symm]
  refine Finset.sum_congr rfl fun m _ => ?_
  have hk := contrEquiv1_symm_val hd_D2 128 rfl rfl m
  have el : hd_D2.lhsIdx (ix3 b p e) ((contrEquiv1 hd_D2 128 rfl rfl).symm m) = ix3 b p m := funext fun a => Fin.ext (by
    match a with
    | ⟨0, _⟩ => exact hd_d2_lhs0 _ _
    | ⟨1, _⟩ => exact hd_d2_lhs1 _ _
    | ⟨2, _⟩ => exact (hd_d2_lhs2 _ _).trans hk)
  have er : hd_D2.rhsIdx (ix3 b p e) ((contrEquiv1 hd_D2 128 rfl rfl).symm m) = ix3 b m e := funext fun a => Fin.ext (by
    match a with
    | ⟨0, _⟩ => exact hd_d2_rhs0 _ _
    | ⟨1, _⟩ => exact (hd_d2_rhs1 _ _).trans hk
    | ⟨2, _⟩ => exact hd_d2_rhs2 _ _)
  rw [el, er]

/-! ## The scaled scores -/

/-- The scaled scores of a query block against a key tile, as the body computes them. -/
def hd_scores (q : FVec Ideal S64x64x256 .f32) (k : FVec Ideal S64x128x256 .f32) : FVec Ideal S64x64x128 .f32 :=
  mulf (matmul hd_D1 none
      (truncf .bf16 (shapeCast S64x64x256 q shapeCasts_S64x64x256_S64x64x256) bitsLt_bf16_f32 : FVec Ideal S64x64x256 .bf16)
      (truncf .bf16 (shapeCast S64x128x256 k shapeCasts_S64x128x256_S64x128x256) bitsLt_bf16_f32 : FVec Ideal S64x128x256 .bf16)
      (constant S64x64x128 .f32 0x00000000#32))
    (broadcast S64x64x128 (Scalar.ofBits (F := Ideal) .f32 0x3D800000#32))

theorem hd_scores_apply (q : FVec Ideal S64x64x256 .f32) (k : FVec Ideal S64x128x256 .f32) (b p : Fin 64) (m : Fin 128) :
    hd_scores q k (ix3 b p m) = (∑ d : Fin 256, q (ix3 b p d) * k (ix3 b m d)) * Attn.wSixteenth := by
  unfold hd_scores
  refine (mulf_apply _ _ _).trans ?_
  refine congrArg₂ (· * ·) ?_ rfl
  refine (hd_dot1_apply _ _ b p m).trans ?_
  refine Finset.sum_congr rfl fun d _ => ?_
  rw [truncf_apply, truncf_apply, shapeCast_self, shapeCast_self]

/-! ## The softmax along the first axis -/

/-- The index over (p, m) of the reduced shape with b' put back on the first axis. -/
theorem hd_lift (p : Fin 64) (m : Fin 128) (b' : Fin 64) :
    reduces_S64x64x128_S64x128.lift (ix2 p m) b' = ix3 b' p m :=
  funext fun a => Fin.ext (by
    match a with
    | ⟨0, _⟩ => rfl
    | ⟨1, _⟩ => rfl
    | ⟨2, _⟩ => rfl)

/-- The maximum over the first axis, as the body computes it. -/
def hd_cmax (x : FVec Ideal S64x64x128 .f32) : FVec Ideal S64x128 .f32 :=
  multiReduction .maximumf [0] S64x128 x 0xFF800000#32 reduces_S64x64x128_S64x128 (.inl rfl) rfl

theorem hd_cmax_apply (x : FVec Ideal S64x64x128 .f32) (p : Fin 64) (m : Fin 128) :
    hd_cmax x (ix2 p m) = Attn.colMax (fun b' => x (ix3 b' p m)) := by
  unfold hd_cmax
  refine (Ideal.multiReduction_maximumf_single x _ reduces_S64x64x128_S64x128 _ _ (ix2 p m)).trans ?_
  have hf : (x ∘ reduces_S64x64x128_S64x128.lift (ix2 p m)) = fun b' : Fin 64 => x (ix3 b' p m) :=
    funext fun b' => congrArg x (hd_lift p m b')
  exact congrArg (fun f : Fin 64 → EReal => (Finset.univ : Finset (Fin 64)).fold max Attn.wNegInf f) hf

/-- The sum over the first axis, as the body computes it. -/
def hd_csum (y : FVec Ideal S64x64x128 .f32) : FVec Ideal S64x128 .f32 :=
  multiReduction .add [0] S64x128 y 0x00000000#32 reduces_S64x64x128_S64x128 (.inl rfl) rfl

theorem hd_csum_apply (y : FVec Ideal S64x64x128 .f32) (p : Fin 64) (m : Fin 128) :
    hd_csum y (ix2 p m) = ∑ b' : Fin 64, y (ix3 b' p m) := by
  unfold hd_csum
  refine (Ideal.multiReduction_add_single y _ reduces_S64x64x128_S64x128 _ _ (ix2 p m)).trans ?_
  exact Finset.sum_congr rfl fun b' _ => congrArg y (hd_lift p m b')

/-- A 64 × 128 array spread over the 64 entries of a new first axis, as the body does it. -/
def hd_spread (z : FVec Ideal S64x128 .f32) : FVec Ideal S64x64x128 .f32 :=
  broadcastTo S64x64x128 (shapeCast S1x64x128 z shapeCasts_S64x128_S1x64x128) broadcasts_S1x64x128_S64x64x128

theorem hd_spread_apply (z : FVec Ideal S64x128 .f32) (b p : Fin 64) (m : Fin 128) :
    hd_spread z (ix3 b p m) = z (ix2 p m) := by
  unfold hd_spread
  refine (broadcastTo_apply _ broadcasts_S1x64x128_S64x64x128 (ix3 b p m) (ix3 (0 : Fin 1) p m) fun ax => ?_).trans
    (shapeCast_ab_1ab_apply z shapeCasts_S64x128_S1x64x128 0 p m)
  match ax with
  | ⟨0, _⟩ => rfl
  | ⟨1, _⟩ => rfl
  | ⟨2, _⟩ => rfl

/-- The exponentials of the scores less their maximum along the first axis. -/
def hd_ex (x : FVec Ideal S64x64x128 .f32) : FVec Ideal S64x64x128 .f32 := exp (subf x (hd_spread (hd_cmax x)))

theorem hd_ex_apply (x : FVec Ideal S64x64x128 .f32) (b p : Fin 64) (m : Fin 128) :
    hd_ex x (ix3 b p m) = Ideal.exp (x (ix3 b p m) - Attn.colMax (fun b' => x (ix3 b' p m))) := by
  show Ideal.exp (x (ix3 b p m) - hd_spread (hd_cmax x) (ix3 b p m)) = _
  rw [hd_spread_apply, hd_cmax_apply]

/-- The softmax weights, as the body computes them. -/
def hd_soft (x : FVec Ideal S64x64x128 .f32) : FVec Ideal S64x64x128 .bf16 :=
  truncf .bf16 (divf (hd_ex x) (hd_spread (hd_csum (hd_ex x)))) bitsLt_bf16_f32

theorem hd_soft_apply (x : FVec Ideal S64x64x128 .f32) (b p : Fin 64) (m : Fin 128) :
    hd_soft x (ix3 b p m) = Attn.weight (fun b' => x (ix3 b' p m)) b := by
  show Ideal.div (hd_ex x (ix3 b p m)) (hd_spread (hd_csum (hd_ex x)) (ix3 b p m)) = _
  rw [hd_spread_apply, hd_csum_apply, hd_ex_apply]
  unfold Attn.weight
  refine congrArg (Ideal.div _) (Finset.sum_congr rfl fun b' _ => ?_)
  exact hd_ex_apply x b' p m

/-! ## The stored blocks at an element -/

/-- The accumulation step, with its stages named. -/
theorem hd_pay2_eq (q : FVec Ideal S64x64x256 .f32) (k v : FVec Ideal S64x128x256 .f32) (a : FVec Ideal S64x64x256 .f32) :
    k1_pay2 (F := Ideal) q k v a
      = shapeCast S64x64x256 (addf a (matmul hd_D2 none (hd_soft (hd_scores q k))
          (truncf .bf16 (shapeCast S64x128x256 v shapeCasts_S64x128x256_S64x128x256) bitsLt_bf16_f32 : FVec Ideal S64x128x256 .bf16)
          (constant S64x64x256 .f32 0x00000000#32))) shapeCasts_S64x64x256_S64x64x256 := rfl

/-- THE STEP AT AN ELEMENT: the accumulator's element plus, over the tile's keys, weight times value. -/
theorem hd_pay2_apply (q : FVec Ideal S64x64x256 .f32) (k v : FVec Ideal S64x128x256 .f32) (a : FVec Ideal S64x64x256 .f32)
    (b p : Fin 64) (e : Fin 256) :
    k1_pay2 (F := Ideal) q k v a (ix3 b p e)
      = a (ix3 b p e) + ∑ r : Fin 128,
          Attn.weight (fun b' => (∑ d : Fin 256, q (ix3 b' p d) * k (ix3 b' r d)) * Attn.wSixteenth) b * v (ix3 b r e) := by
  rw [hd_pay2_eq, shapeCast_self, addf_apply]
  refine congrArg (a (ix3 b p e) + ·) ?_
  refine (hd_dot2_apply _ _ b p e).trans ?_
  refine Finset.sum_congr rfl fun r _ => ?_
  rw [hd_soft_apply, truncf_apply, shapeCast_self]
  refine congrArg (· * v (ix3 b r e)) ?_
  refine congrArg (fun s : Fin 64 → EReal => Attn.weight s b) ?_
  funext b'
  exact hd_scores_apply q k b' p r

/-- The reset block is zero at every element. -/
theorem hd_pay1_apply (i : S64x64x256.Idx) : k1_pay1 (F := Ideal) i = 0 := by
  show Ideal.ofBits .f32 0x00000000#32 = 0
  exact Ideal.ofBits_zero_f32

end Cert.KernelIdeal.Hand

end
-- ==== Proof.Val1.lean ====
/-
  The second region's result array on the extended reals: block i of the output is what the last of the four
  key tiles of query tile i left in the scratch block, the zero block plus the four tiles' terms in order, and
  the output's blocks tile the array; so the array ends holding, at (b, n, e), the sum over the four key tiles
  of the softmax-weighted values.
-/
import proofs.«102405_j6794638262727_1_alg».proof.Proof.Body1
import proofs.«102405_j6794638262727_1_alg».proof.Proof.Val1Pay
import proofs.«102405_j6794638262727_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The windows' block indices over the grid (point t is query tile t / 4, key tile t % 4) -/

theorem hd_idx0 : ∀ t : Fin cfg1.N, win1_0.index t (0 : Fin 3) = 0 ∧ win1_0.index t (1 : Fin 3) = t.val / 4 ∧ win1_0.index t (2 : Fin 3) = 0 :=
  (by decide +kernel : ∀ t : Fin grid1.N, win1_0.index t (0 : Fin 3) = 0 ∧ win1_0.index t (1 : Fin 3) = t.val / 4 ∧ win1_0.index t (2 : Fin 3) = 0)
theorem hd_idx1 : ∀ t : Fin cfg1.N, win1_1.index t (0 : Fin 3) = 0 ∧ win1_1.index t (1 : Fin 3) = t.val % 4 ∧ win1_1.index t (2 : Fin 3) = 0 :=
  (by decide +kernel : ∀ t : Fin grid1.N, win1_1.index t (0 : Fin 3) = 0 ∧ win1_1.index t (1 : Fin 3) = t.val % 4 ∧ win1_1.index t (2 : Fin 3) = 0)
theorem hd_idx2 : ∀ t : Fin cfg1.N, win1_2.index t (0 : Fin 3) = 0 ∧ win1_2.index t (1 : Fin 3) = t.val % 4 ∧ win1_2.index t (2 : Fin 3) = 0 :=
  (by decide +kernel : ∀ t : Fin grid1.N, win1_2.index t (0 : Fin 3) = 0 ∧ win1_2.index t (1 : Fin 3) = t.val % 4 ∧ win1_2.index t (2 : Fin 3) = 0)
theorem hd_idx3 : ∀ t : Fin cfg1.N, win1_3.index t (0 : Fin 3) = 0 ∧ win1_3.index t (1 : Fin 3) = t.val / 4 ∧ win1_3.index t (2 : Fin 3) = 0 :=
  (by decide +kernel : ∀ t : Fin grid1.N, win1_3.index t (0 : Fin 3) = 0 ∧ win1_3.index t (1 : Fin 3) = t.val / 4 ∧ win1_3.index t (2 : Fin 3) = 0)
theorem hd_xsize3 : ∀ t : Fin cfg1.N, win1_3.xsize (grid1.coords t) (0 : Fin 3) = 64 ∧ win1_3.xsize (grid1.coords t) (1 : Fin 3) = 64 ∧ win1_3.xsize (grid1.coords t) (2 : Fin 3) = 256 :=
  (by decide +kernel : ∀ t : Fin grid1.N, win1_3.xsize (grid1.coords t) (0 : Fin 3) = 64 ∧ win1_3.xsize (grid1.coords t) (1 : Fin 3) = 64 ∧ win1_3.xsize (grid1.coords t) (2 : Fin 3) = 256)

-- the TensorCore's buffer contents when the region is entered
variable (V : (c : Dev nD) → (b : Ref sig .tc) → Buf (Elt Ideal) ((c : Thread nD τ).loc b))

/-! ## A block's element in its array: block index times block size plus the coordinate inside the block -/

theorem hd_iblk1_0 (c : Dev nD) (t : Fin cfg1.N) (b p : Fin 64) (d : Fin 256) (n : Fin 512) (hn : n.val = 64 * (t.val / 4) + p.val) :
    iblk1 (F := Ideal) V c 0 t (ix3 b p d) = V c main_v8 (ix3 b n d) := by
  have hi := hd_idx0 t
  unfold iblk1
  rw [View.read_apply]
  show V c main_v8 _ = V c main_v8 _
  refine congrArg (V c main_v8) (funext fun a => Fin.ext ?_)
  match a with
  | ⟨0, _⟩ => show win1_0.index t 0 * 64 + 1 * b.val = b.val; rw [hi.1]; omega
  | ⟨1, _⟩ => show win1_0.index t 1 * 64 + 1 * p.val = n.val; rw [hi.2.1, hn]; omega
  | ⟨2, _⟩ => show win1_0.index t 2 * 256 + 1 * d.val = d.val; rw [hi.2.2]; omega

theorem hd_iblk1_1 (c : Dev nD) (t : Fin cfg1.N) (b : Fin 64) (r : Fin 128) (d : Fin 256) (m : Fin 512) (hm : m.val = 128 * (t.val % 4) + r.val) :
    iblk1 (F := Ideal) V c 1 t (ix3 b r d) = V c main_v9 (ix3 b m d) := by
  have hi := hd_idx1 t
  unfold iblk1
  rw [View.read_apply]
  show V c main_v9 _ = V c main_v9 _
  refine congrArg (V c main_v9) (funext fun a => Fin.ext ?_)
  match a with
  | ⟨0, _⟩ => show win1_1.index t 0 * 64 + 1 * b.val = b.val; rw [hi.1]; omega
  | ⟨1, _⟩ => show win1_1.index t 1 * 128 + 1 * r.val = m.val; rw [hi.2.1, hm]; omega
  | ⟨2, _⟩ => show win1_1.index t 2 * 256 + 1 * d.val = d.val; rw [hi.2.2]; omega

theorem hd_iblk1_2 (c : Dev nD) (t : Fin cfg1.N) (b : Fin 64) (r : Fin 128) (d : Fin 256) (m : Fin 512) (hm : m.val = 128 * (t.val % 4) + r.val) :
    iblk1 (F := Ideal) V c 2 t (ix3 b r d) = V c main_v10 (ix3 b m d) := by
  have hi := hd_idx2 t
  unfold iblk1
  rw [View.read_apply]
  show V c main_v10 _ = V c main_v10 _
  refine congrArg (V c main_v10) (funext fun a => Fin.ext ?_)
  match a with
  | ⟨0, _⟩ => show win1_2.index t 0 * 64 + 1 * b.val = b.val; rw [hi.1]; omega
  | ⟨1, _⟩ => show win1_2.index t 1 * 128 + 1 * r.val = m.val; rw [hi.2.1, hm]; omega
  | ⟨2, _⟩ => show win1_2.index t 2 * 256 + 1 * d.val = d.val; rw [hi.2.2]; omega

/-- The same for the output window, of any contents of its array. -/
theorem hd_read_blk3 (c : Dev nD) (X : Buf (Elt Ideal) ((c : Thread nD τ).loc main_v11)) (t : Fin cfg1.N) (b p : Fin 64) (e : Fin 256) (n : Fin 512)
    (hn : n.val = 64 * (t.val / 4) + p.val) :
    ((cfg1.win 3).blk t).view.read (Elt Ideal) X (ix3 b p e) = X (ix3 b n e) := by
  have hi := hd_idx3 t
  rw [View.read_apply]
  show X _ = X _
  refine congrArg X (funext fun a => Fin.ext ?_)
  match a with
  | ⟨0, _⟩ => show win1_3.index t 0 * 64 + 1 * b.val = b.val; rw [hi.1]; omega
  | ⟨1, _⟩ => show win1_3.index t 1 * 64 + 1 * p.val = n.val; rw [hi.2.1, hn]; omega
  | ⟨2, _⟩ => show win1_3.index t 2 * 256 + 1 * e.val = e.val; rw [hi.2.2]; omega

/-! ## The three arrays by coordinates, and one point's step as a tile term -/

abbrev hd_Q (c : Dev nD) : Attn.Arr3 := fun b n d => V c main_v8 (ix3 b n d)
abbrev hd_K (c : Dev nD) : Attn.Arr3 := fun b n d => V c main_v9 (ix3 b n d)
abbrev hd_W (c : Dev nD) : Attn.Arr3 := fun b n d => V c main_v10 (ix3 b n d)

/-- The body's step at point t, at row p of the point's query tile, adds key tile t % 4's term at query
    row 64 · (t / 4) + p to the accumulator's element. -/
theorem hd_tile (c : Dev nD) (t : Fin cfg1.N) (b p : Fin 64) (e : Fin 256) (n : Fin 512) (j : Fin 4)
    (hn : n.val = 64 * (t.val / 4) + p.val) (hj : j.val = t.val % 4) (a : FVec Ideal S64x64x256 .f32) :
    k1_pay2 (F := Ideal) (iblk1 V c 0 t) (iblk1 V c 1 t) (iblk1 V c 2 t) a (ix3 b p e)
      = a (ix3 b p e) + Attn.tileTerm (hd_Q V c) (hd_K V c) (hd_W V c) b n e j := by
  refine (hd_pay2_apply (iblk1 V c 0 t) (iblk1 V c 1 t) (iblk1 V c 2 t) a b p e).trans ?_
  refine congrArg (a (ix3 b p e) + ·) ?_
  unfold Attn.tileTerm
  refine Finset.sum_congr rfl fun r _ => ?_
  have hM : (Attn.keyOf j r).val = 128 * (t.val % 4) + r.val := by
    show 128 * j.val + r.val = _
    rw [hj]
  rw [hd_iblk1_2 V c t b r e (Attn.keyOf j r) hM]
  refine congrArg (· * V c main_v10 (ix3 b (Attn.keyOf j r) e)) ?_
  refine congrArg (fun s : Fin 64 → EReal => Attn.weight s b) (funext fun b' => ?_)
  unfold Attn.scoreMul Attn.dotQK
  refine congrArg (· * Attn.wSixteenth) (Finset.sum_congr rfl fun d _ => ?_)
  rw [hd_iblk1_0 V c t b' p d n hn, hd_iblk1_1 V c t b' r d (Attn.keyOf j r) hM]

/-! ## The accumulation at an element -/

theorem hd_acc1_congr (c : Dev nD) {n n' : ℕ} (h : n = n') (hn : n < cfg1.N) (hn' : n' < cfg1.N) :
    hd_acc1 V c n hn = hd_acc1 V c n' hn' := by subst h; rfl

/-- At a first key tile: zero plus the tile's term. -/
theorem hd_acc1_zero_apply (c : Dev nD) (n : ℕ) (hn : n < cfg1.N) (h0 : n % 4 = 0) (b p : Fin 64) (e : Fin 256) (m : Fin 512)
    (hm : m.val = 64 * (n / 4) + p.val) :
    hd_acc1 V c n hn (ix3 b p e) = 0 + Attn.tileTerm (hd_Q V c) (hd_K V c) (hd_W V c) b m e 0 := by
  refine (congrFun (hd_acc1_first V c ⟨n, hn⟩ h0) _).trans ?_
  refine (hd_tile V c ⟨n, hn⟩ b p e m 0 hm (by show 0 = n % 4; omega) _).trans ?_
  rw [hd_pay1_apply]

/-- At a later key tile: what the point before left plus the tile's term. -/
theorem hd_acc1_succ_apply (c : Dev nD) (n : ℕ) (hn : n + 1 < cfg1.N) (h0 : ¬(n + 1) % 4 = 0) (b p : Fin 64) (e : Fin 256) (m : Fin 512) (j : Fin 4)
    (hm : m.val = 64 * ((n + 1) / 4) + p.val) (hj : j.val = (n + 1) % 4) :
    hd_acc1 V c (n + 1) hn (ix3 b p e)
      = hd_acc1 V c n (Nat.lt_of_succ_lt hn) (ix3 b p e) + Attn.tileTerm (hd_Q V c) (hd_K V c) (hd_W V c) b m e j := by
  refine (congrFun (hd_acc1_next V c ⟨n + 1, hn⟩ h0) _).trans ?_
  exact hd_tile V c ⟨n + 1, hn⟩ b p e m j hm hj _

/-- After the fourth key tile of a query tile: the four tiles' terms, in order. -/
theorem hd_acc1_run (c : Dev nD) (n : ℕ) (hn : n + 1 + 1 + 1 < cfg1.N) (h0 : n % 4 = 0) (b p : Fin 64) (e : Fin 256) (m : Fin 512)
    (hm : m.val = 64 * (n / 4) + p.val) :
    hd_acc1 V c (n + 1 + 1 + 1) hn (ix3 b p e) = Attn.outTiled (hd_Q V c) (hd_K V c) (hd_W V c) b m e := by
  rw [hd_acc1_succ_apply V c (n + 1 + 1) hn (by omega) b p e m 3 (by rw [hm]; omega) (by show 3 = _; omega),
    hd_acc1_succ_apply V c (n + 1) _ (by omega) b p e m 2 (by rw [hm]; omega) (by show 2 = _; omega),
    hd_acc1_succ_apply V c n _ (by omega) b p e m 1 (by rw [hm]; omega) (by show 1 = _; omega),
    hd_acc1_zero_apply V c n _ h0 b p e m hm]
  unfold Attn.outTiled
  rw [Fin.sum_univ_four, zero_add]

/-! ## From blocks to the array -/

/-- The whole result, by coordinates: what every written-back block is a block of. -/
def hd_G (c : Dev nD) : Buf (Elt Ideal) ((c : Thread nD τ).loc main_v11) :=
  fun i => Attn.outTiled (hd_Q V c) (hd_K V c) (hd_W V c) ⟨(i 0).val, (i 0).isLt⟩ ⟨(i 1).val, (i 1).isLt⟩ ⟨(i 2).val, (i 2).isLt⟩

/-- A point that writes the output's block back (the last key tile of its query tile) writes that block of
    the whole result. -/
theorem hd_flushed_eq (c : Dev nD) (t : Fin cfg1.N) (hf : (cfg1.win 3).flush t = true) :
    (dat1 (F := Ideal) V c).flushed 3 t = ((cfg1.win 3).blk t).view.read (Elt Ideal) (hd_G V c) := by
  have h3 : t.val % 4 = 3 := (flush1_3 t).mp hf
  have hN : cfg1.N = 32 := N_1
  have ht : t.val < 32 := lt_of_lt_of_eq t.isLt hN
  show (cfg1.win 3).cut (grid1.coords t) ((dat1 (F := Ideal) V c).after 3 t) = _
  rw [hd_after1_3]
  funext y
  obtain ⟨b, p, e, rfl⟩ : ∃ (b : Fin 64) (p : Fin 64) (e : Fin 256), y = ix3 b p e := ⟨y 0, y 1, y 2, eq_ix3 y⟩
  have hp : 64 * (t.val / 4) + p.val < 512 := by have := p.isLt; omega
  rw [hd_read_blk3 c (hd_G V c) t b p e ⟨64 * (t.val / 4) + p.val, hp⟩ rfl]
  show hd_acc1 V c t.val t.isLt (ix3 b p e) = _
  rw [hd_acc1_congr V c (show t.val = t.val - 3 + 1 + 1 + 1 by omega) t.isLt (by omega)]
  exact hd_acc1_run V c (t.val - 3) _ (by omega) b p e ⟨64 * (t.val / 4) + p.val, hp⟩ (by show 64 * (t.val / 4) + p.val = _; omega)

/-- THE RESULT ARRAY after the region: at (b, n, e) the four key tiles' terms of query row n. -/
theorem final1_3 (V : (c : Dev nD) → (b : Ref sig .tc) → Buf (Elt Ideal) ((c : Thread nD τ).loc b)) (c : Dev nD) (b : Fin 64) (n : Fin 512) (e : Fin 256) :
    (dat1 (F := Ideal) V c).arrAt 3 cfg1.N (ix3 b n e)
      = Cert.Attn.outTiled (fun b n d => V c main_v8 (ix3 b n d)) (fun b n d => V c main_v9 (ix3 b n d)) (fun b n d => V c main_v10 (ix3 b n d)) b n e := by
  have hN : cfg1.N = 32 := N_1
  have hfin : (dat1 (F := Ideal) V c).arrAt 3 cfg1.N = hd_G V c :=
    (dat1 (F := Ideal) V c).arrAt_eq_of_cover 3 (hd_G V c) (hd_flushed_eq V c) fun i => by
      have h0 : (i 0 : Nat) < 64 := (i 0).isLt
      have h1 : (i 1 : Nat) < 512 := (i 1).isLt
      have h2 : (i 2 : Nat) < 256 := (i 2).isLt
      refine ⟨⟨4 * ((i 1 : Nat) / 64) + 3, by omega⟩, (flush1_3 _).mpr (by show (4 * ((i 1 : Nat) / 64) + 3) % 4 = 3; omega), ?_⟩
      generalize hT : (⟨4 * ((i 1 : Nat) / 64) + 3, by omega⟩ : Fin cfg1.N) = t
      have htv : t.val = 4 * ((i 1 : Nat) / 64) + 3 := by rw [← hT]
      have hi := hd_idx3 t
      have hx := hd_xsize3 t
      show i ∈ ((View.whole main_v11).slice (win1_3.rect t)).set
      rw [View.set_slice_whole, Rect.mem_set_unit]
      intro a
      match a with
      | ⟨0, _⟩ =>
        show win1_3.index t 0 * 64 ≤ (i 0 : Nat) ∧ (i 0 : Nat) < win1_3.index t 0 * 64 + win1_3.xsize (grid1.coords t) 0
        rw [hi.1, hx.1]; omega
      | ⟨1, _⟩ =>
        show win1_3.index t 1 * 64 ≤ (i 1 : Nat) ∧ (i 1 : Nat) < win1_3.index t 1 * 64 + win1_3.xsize (grid1.coords t) 1
        rw [hi.2.1, hx.2.1, htv]; omega
      | ⟨2, _⟩ =>
        show win1_3.index t 2 * 256 ≤ (i 2 : Nat) ∧ (i 2 : Nat) < win1_3.index t 2 * 256 + win1_3.xsize (grid1.coords t) 2
        rw [hi.2.2, hx.2.2]; omega
  rw [hfin]
  rfl

end Cert.KernelIdeal.Hand

end
-- ==== Proof.Final.lean ====
/-
  The kernel's result as one function of the arguments: what the second region finds for its queries, keys and
  values is what the first region left (read back through the reshapes), which is the normalised projection of x by
  the matching weights and bias (read through the reshape and the transposes before it); the second region's
  output array is the tiled weighted sum of those.
-/
import proofs.«102405_j6794638262727_1_alg».proof.Proof.Run
import proofs.«102405_j6794638262727_1_alg».proof.Proof.Glue
import proofs.«102405_j6794638262727_1_alg».proof.Proof.Spec
import proofs.«102405_j6794638262727_1_alg».proof.Proof.Val0
import proofs.«102405_j6794638262727_1_alg».proof.Proof.Val1

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The argument arrays by coordinates. -/
abbrev aX (c : Dev nD) : Cert.Attn.Arr3 := fun b n e => (m ((c.tc : Thread nD τ).loc main_arg0) : S64x512x256.Idx → EReal) (ix3 b n e)
abbrev aWq (c : Dev nD) : Fin 256 → Fin 256 → EReal := fun d e => (m ((c.tc : Thread nD τ).loc main_arg1) : S256x256.Idx → EReal) (ix2 d e)
abbrev abq (c : Dev nD) : Fin 256 → EReal := fun d => (m ((c.tc : Thread nD τ).loc main_arg2) : S256.Idx → EReal) (ix1 d)
abbrev aWk (c : Dev nD) : Fin 256 → Fin 256 → EReal := fun d e => (m ((c.tc : Thread nD τ).loc main_arg3) : S256x256.Idx → EReal) (ix2 d e)
abbrev abk (c : Dev nD) : Fin 256 → EReal := fun d => (m ((c.tc : Thread nD τ).loc main_arg4) : S256.Idx → EReal) (ix1 d)
abbrev aWv (c : Dev nD) : Fin 256 → Fin 256 → EReal := fun d e => (m ((c.tc : Thread nD τ).loc main_arg5) : S256x256.Idx → EReal) (ix2 d e)
abbrev abv (c : Dev nD) : Fin 256 → EReal := fun d => (m ((c.tc : Thread nD τ).loc main_arg6) : S256.Idx → EReal) (ix1 d)

/-- What the second region finds for its queries is the normalised query projection of x. -/
theorem found_q (c : Dev nD) :
    (fun b n d => (V3 m c main_v8 : S64x512x256.Idx → EReal) (ix3 b n d)) = Cert.Attn.qkvMul (aX m c) (aWq m c) (abq m c) := by
  funext b n d
  refine (mid_q (W2 m c) b n d).trans ?_
  have e7 : W2 m c (Proc.devRef .tc main_v7_0) = (dat0 (F := Ideal) (V1 m) c).arrAt 7 cfg0.N := W2_arr m c 7
  refine (congrFun e7 _).trans ?_
  refine (final0_7 (V1 m) c (rowOf b n) d).trans ?_
  have h1 : (fun e => (V1 m c main_v0 : S32768x256.Idx → EReal) (ix2 (rowOf b n) e)) = aX m c b n := funext fun e => pre_x (W0 m c) b n e
  have h2 : (fun d' e => (V1 m c main_v1 : S256x256.Idx → EReal) (ix2 e d')) = aWq m c := funext fun d' => funext fun e => pre_wq (W0 m c) d' e
  have h3 : (fun d' => (V1 m c main_v4 : S1x256.Idx → EReal) (ix2 0 d')) = abq m c := funext fun d' => pre_bq (W0 m c) d'
  exact congrArg (fun p => Cert.Attn.normMul p d) (congr (congr (congrArg Cert.Attn.proj h1) h2) h3)

/-- The keys likewise. -/
theorem found_k (c : Dev nD) :
    (fun b n d => (V3 m c main_v9 : S64x512x256.Idx → EReal) (ix3 b n d)) = Cert.Attn.qkvMul (aX m c) (aWk m c) (abk m c) := by
  funext b n d
  refine (mid_k (W2 m c) b n d).trans ?_
  have e8 : W2 m c (Proc.devRef .tc main_v7_1) = (dat0 (F := Ideal) (V1 m) c).arrAt 8 cfg0.N := W2_arr m c 8
  refine (congrFun e8 _).trans ?_
  refine (final0_8 (V1 m) c (rowOf b n) d).trans ?_
  have h1 : (fun e => (V1 m c main_v0 : S32768x256.Idx → EReal) (ix2 (rowOf b n) e)) = aX m c b n := funext fun e => pre_x (W0 m c) b n e
  have h2 : (fun d' e => (V1 m c main_v2 : S256x256.Idx → EReal) (ix2 e d')) = aWk m c := funext fun d' => funext fun e => pre_wk (W0 m c) d' e
  have h3 : (fun d' => (V1 m c main_v5 : S1x256.Idx → EReal) (ix2 0 d')) = abk m c := funext fun d' => pre_bk (W0 m c) d'
  exact congrArg (fun p => Cert.Attn.normMul p d) (congr (congr (congrArg Cert.Attn.proj h1) h2) h3)

/-- The values likewise. -/
theorem found_v (c : Dev nD) :
    (fun b n d => (V3 m c main_v10 : S64x512x256.Idx → EReal) (ix3 b n d)) = Cert.Attn.qkvMul (aX m c) (aWv m c) (abv m c) := by
  funext b n d
  refine (mid_v (W2 m c) b n d).trans ?_
  have e9 : W2 m c (Proc.devRef .tc main_v7_2) = (dat0 (F := Ideal) (V1 m) c).arrAt 9 cfg0.N := W2_arr m c 9
  refine (congrFun e9 _).trans ?_
  refine (final0_9 (V1 m) c (rowOf b n) d).trans ?_
  have h1 : (fun e => (V1 m c main_v0 : S32768x256.Idx → EReal) (ix2 (rowOf b n) e)) = aX m c b n := funext fun e => pre_x (W0 m c) b n e
  have h2 : (fun d' e => (V1 m c main_v3 : S256x256.Idx → EReal) (ix2 e d')) = aWv m c := funext fun d' => funext fun e => pre_wv (W0 m c) d' e
  have h3 : (fun d' => (V1 m c main_v6 : S1x256.Idx → EReal) (ix2 0 d')) = abv m c := funext fun d' => pre_bv (W0 m c) d'
  exact congrArg (fun p => Cert.Attn.normMul p d) (congr (congr (congrArg Cert.Attn.proj h1) h2) h3)

/-- The result array after the run, at (b, n, e), is the tiled reading of the arguments. -/
theorem kernel_value (c : Dev nD) (b : Fin 64) (n : Fin 512) (e : Fin 256) :
    ((dat1 (F := Ideal) (V3 m) c).arrAt 3 cfg1.N : S64x512x256.Idx → EReal) (ix3 b n e)
      = Cert.Attn.resultTiled (aX m c) (aWq m c) (abq m c) (aWk m c) (abk m c) (aWv m c) (abv m c) b n e := by
  refine (final1_3 (V3 m) c b n e).trans ?_
  exact congrFun (congrFun (congrFun (congr (congr (congrArg Cert.Attn.outTiled (found_q m c)) (found_k m c)) (found_v m c)) b) n) e

end Cert.KernelIdeal.Hand

end
-- ==== Proof.RefValue1.lean ====
/-
  The reference's three normalised projections, read at an index: operations 0 to 21 of the reference (a contraction of x with a
  weight matrix over the last axis, plus the bias row; the mean and the biased variance of each row of 256 by sums divided by
  256; the centred entry divided by the root of variance + ε) are, at (b, n, d), the specification's quotient reading
  Attn.qkvDiv of the buffers' coordinate functions. Operations 22 to 43 and 44 to 65 are the same term of their operands.
-/
import proofs.«102405_j6794638262727_1_alg».proof.Proof.Gen.ReferenceIdeal.Read
import proofs.«102405_j6794638262727_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- Row (b, n) of x projected by the weights W with the bias: the specification's projection row on the buffers' coordinates. -/
abbrev ha_row (x0 : (⟨S64x512x256, .f32⟩ : BufTy).Contents (Elt Ideal)) (W : (⟨S256x256, .f32⟩ : BufTy).Contents (Elt Ideal))
    (bias : (⟨S256, .f32⟩ : BufTy).Contents (Elt Ideal)) (b : Fin 64) (n : Fin 512) : Fin 256 → EReal :=
  Cert.Attn.proj (fun e => x0 (ix3 b n e)) (fun d e => W (ix2 d e)) (fun d => bias (ix1 d))

/-! ### The first projection: operations 0 to 21 -/

/-- The projection with its bias, at (b, n, d). -/
theorem ha_q_proj (x0 : (⟨S64x512x256, .f32⟩ : BufTy).Contents (Elt Ideal)) (x1 : (⟨S256x256, .f32⟩ : BufTy).Contents (Elt Ideal)) (x2 : (⟨S256, .f32⟩ : BufTy).Contents (Elt Ideal)) (b : Fin 64) (n : Fin 512) (d : Fin 256) :
    val_main_v3 (F := Ideal) x0 x1 x2 (ix3 b n d) = ha_row x0 x1 x2 b n d := by
  rw [val_main_v3_apply, val_main_v0_apply, val_main_v2_apply, val_main_v1_apply]
  simp only [Ideal.addf_def]
  unfold ha_row Cert.Attn.proj
  refine congrArg₂ (· + ·) (Finset.sum_congr rfl fun k _ => ?_) ?_
  · exact congrArg₂ (· * ·)
      (congrArg x0 (funext fun a => Fin.ext (by match a with | ⟨0, _⟩ => rfl | ⟨1, _⟩ => rfl | ⟨2, _⟩ => rfl)))
      (congrArg x1 (funext fun a => Fin.ext (by match a with | ⟨0, _⟩ => rfl | ⟨1, _⟩ => rfl)))
  · exact congrArg x2 (funext fun a => Fin.ext (by match a with | ⟨0, _⟩ => rfl))

/-- The row's mean, in its keepdims column. -/
theorem ha_q_mean (x0 : (⟨S64x512x256, .f32⟩ : BufTy).Contents (Elt Ideal)) (x1 : (⟨S256x256, .f32⟩ : BufTy).Contents (Elt Ideal)) (x2 : (⟨S256, .f32⟩ : BufTy).Contents (Elt Ideal)) (b : Fin 64) (n : Fin 512) (z : Fin 1) :
    val_main_v7 (F := Ideal) x0 x1 x2 (ix3 b n z) = Cert.Attn.rowMean (ha_row x0 x1 x2 b n) := by
  rw [val_main_v7_apply, val_main_v5_apply, val_main_v4_apply, val_main_v6_apply, val_main_cst_0_apply, val_main_cst_apply]
  simp only [Ideal.hostDivf_def, Ideal.ofBits_def]
  rw [Ideal.ofBits_zero_f32, zero_add]
  unfold Cert.Attn.rowMean
  refine congrArg (fun s => Ideal.div s Cert.Attn.w256) (Finset.sum_congr rfl fun k _ => ?_)
  refine Eq.trans (congrArg (val_main_v3 (F := Ideal) x0 x1 x2) ?_) (ha_q_proj x0 x1 x2 b n k)
  exact funext fun a => Fin.ext (by match a with | ⟨0, _⟩ => rfl | ⟨1, _⟩ => rfl | ⟨2, _⟩ => rfl)

/-- The centred entry at (b, n, d), through the first broadcast of the mean. -/
theorem ha_q_centred (x0 : (⟨S64x512x256, .f32⟩ : BufTy).Contents (Elt Ideal)) (x1 : (⟨S256x256, .f32⟩ : BufTy).Contents (Elt Ideal)) (x2 : (⟨S256, .f32⟩ : BufTy).Contents (Elt Ideal)) (b : Fin 64) (n : Fin 512) (d : Fin 256) :
    val_main_v9 (F := Ideal) x0 x1 x2 (ix3 b n d) = ha_row x0 x1 x2 b n d - Cert.Attn.rowMean (ha_row x0 x1 x2 b n) := by
  rw [val_main_v9_apply, val_main_v8_apply, ha_q_proj]
  simp only [Ideal.subf_def]
  refine congrArg (fun s => ha_row x0 x1 x2 b n d - s) ?_
  refine Eq.trans (congrArg (val_main_v7 (F := Ideal) x0 x1 x2) ?_) (ha_q_mean x0 x1 x2 b n 0)
  exact funext fun a => Fin.ext (by match a with | ⟨0, _⟩ => rfl | ⟨1, _⟩ => rfl | ⟨2, _⟩ => rfl)

/-- The centred entry at (b, n, d), through the second broadcast of the mean. -/
theorem ha_q_centred' (x0 : (⟨S64x512x256, .f32⟩ : BufTy).Contents (Elt Ideal)) (x1 : (⟨S256x256, .f32⟩ : BufTy).Contents (Elt Ideal)) (x2 : (⟨S256, .f32⟩ : BufTy).Contents (Elt Ideal)) (b : Fin 64) (n : Fin 512) (d : Fin 256) :
    val_main_v16 (F := Ideal) x0 x1 x2 (ix3 b n d) = ha_row x0 x1 x2 b n d - Cert.Attn.rowMean (ha_row x0 x1 x2 b n) := by
  rw [val_main_v16_apply, val_main_v15_apply, ha_q_proj]
  simp only [Ideal.subf_def]
  refine congrArg (fun s => ha_row x0 x1 x2 b n d - s) ?_
  refine Eq.trans (congrArg (val_main_v7 (F := Ideal) x0 x1 x2) ?_) (ha_q_mean x0 x1 x2 b n 0)
  exact funext fun a => Fin.ext (by match a with | ⟨0, _⟩ => rfl | ⟨1, _⟩ => rfl | ⟨2, _⟩ => rfl)

/-- The row's variance, in its keepdims column. -/
theorem ha_q_var (x0 : (⟨S64x512x256, .f32⟩ : BufTy).Contents (Elt Ideal)) (x1 : (⟨S256x256, .f32⟩ : BufTy).Contents (Elt Ideal)) (x2 : (⟨S256, .f32⟩ : BufTy).Contents (Elt Ideal)) (b : Fin 64) (n : Fin 512) (z : Fin 1) :
    val_main_v14 (F := Ideal) x0 x1 x2 (ix3 b n z) = Cert.Attn.rowVar (ha_row x0 x1 x2 b n) := by
  rw [val_main_v14_apply, val_main_v12_apply, val_main_v11_apply, val_main_v13_apply, val_main_cst_2_apply, val_main_cst_1_apply]
  simp only [Ideal.hostDivf_def, Ideal.ofBits_def]
  rw [Ideal.ofBits_zero_f32, zero_add]
  unfold Cert.Attn.rowVar
  refine congrArg (fun s => Ideal.div s Cert.Attn.w256) (Finset.sum_congr rfl fun k _ => ?_)
  rw [val_main_v10_apply]
  simp only [Ideal.mulf_def]
  have e : idx_main_v11 (idx_main_v12 (ix3 b n z)) k = ix3 b n k :=
    funext fun a => Fin.ext (by match a with | ⟨0, _⟩ => rfl | ⟨1, _⟩ => rfl | ⟨2, _⟩ => rfl)
  rw [e, ha_q_centred]

/-- The root of variance + ε, in its keepdims column. -/
theorem ha_q_root (x0 : (⟨S64x512x256, .f32⟩ : BufTy).Contents (Elt Ideal)) (x1 : (⟨S256x256, .f32⟩ : BufTy).Contents (Elt Ideal)) (x2 : (⟨S256, .f32⟩ : BufTy).Contents (Elt Ideal)) (b : Fin 64) (n : Fin 512) (z : Fin 1) :
    val_main_v19 (F := Ideal) x0 x1 x2 (ix3 b n z) = Ideal.sqrt (Cert.Attn.rowVar (ha_row x0 x1 x2 b n) + Cert.Attn.wEps) := by
  rw [val_main_v19_apply, val_main_v18_apply, val_main_v17_apply, val_main_cst_3_apply, ha_q_var]
  simp only [Ideal.hostUnary_sqrt_def, Ideal.addf_def, Ideal.ofBits_def]

/-- The normalised projection at (b, n, d) is the specification's quotient reading. -/
theorem ha_q_norm (x0 : (⟨S64x512x256, .f32⟩ : BufTy).Contents (Elt Ideal)) (x1 : (⟨S256x256, .f32⟩ : BufTy).Contents (Elt Ideal)) (x2 : (⟨S256, .f32⟩ : BufTy).Contents (Elt Ideal)) (b : Fin 64) (n : Fin 512) (d : Fin 256) :
    val_main_v21 (F := Ideal) x0 x1 x2 (ix3 b n d)
      = Cert.Attn.qkvDiv (fun b n e => x0 (ix3 b n e)) (fun d e => x1 (ix2 d e)) (fun d => x2 (ix1 d)) b n d := by
  rw [val_main_v21_apply, val_main_v20_apply, ha_q_centred']
  simp only [Ideal.hostDivf_def]
  have e : idx_main_v20 (ix3 b n d) = ix3 b n (0 : Fin 1) :=
    funext fun a => Fin.ext (by match a with | ⟨0, _⟩ => rfl | ⟨1, _⟩ => rfl | ⟨2, _⟩ => rfl)
  rw [e, ha_q_root]
  rfl

/-! ### The second and third projections are the same term of their operands -/

theorem ha_k_same {F : FTy → Type} [FloatOps F] (x0 : (⟨S64x512x256, .f32⟩ : BufTy).Contents (Elt F))
    (w : (⟨S256x256, .f32⟩ : BufTy).Contents (Elt F)) (c : (⟨S256, .f32⟩ : BufTy).Contents (Elt F)) :
    val_main_v43 (F := F) x0 w c = val_main_v21 (F := F) x0 w c := rfl

theorem ha_v_same {F : FTy → Type} [FloatOps F] (x0 : (⟨S64x512x256, .f32⟩ : BufTy).Contents (Elt F))
    (w : (⟨S256x256, .f32⟩ : BufTy).Contents (Elt F)) (c : (⟨S256, .f32⟩ : BufTy).Contents (Elt F)) :
    val_main_v65 (F := F) x0 w c = val_main_v21 (F := F) x0 w c := rfl

theorem ha_k_norm (x0 : (⟨S64x512x256, .f32⟩ : BufTy).Contents (Elt Ideal)) (x3 : (⟨S256x256, .f32⟩ : BufTy).Contents (Elt Ideal)) (x4 : (⟨S256, .f32⟩ : BufTy).Contents (Elt Ideal)) (b : Fin 64) (n : Fin 512) (d : Fin 256) :
    val_main_v43 (F := Ideal) x0 x3 x4 (ix3 b n d)
      = Cert.Attn.qkvDiv (fun b n e => x0 (ix3 b n e)) (fun d e => x3 (ix2 d e)) (fun d => x4 (ix1 d)) b n d :=
  (congrFun (ha_k_same x0 x3 x4) (ix3 b n d)).trans (ha_q_norm x0 x3 x4 b n d)

theorem ha_v_norm (x0 : (⟨S64x512x256, .f32⟩ : BufTy).Contents (Elt Ideal)) (x5 : (⟨S256x256, .f32⟩ : BufTy).Contents (Elt Ideal)) (x6 : (⟨S256, .f32⟩ : BufTy).Contents (Elt Ideal)) (b : Fin 64) (n : Fin 512) (d : Fin 256) :
    val_main_v65 (F := Ideal) x0 x5 x6 (ix3 b n d)
      = Cert.Attn.qkvDiv (fun b n e => x0 (ix3 b n e)) (fun d e => x5 (ix2 d e)) (fun d => x6 (ix1 d)) b n d :=
  (congrFun (ha_v_same x0 x5 x6) (ix3 b n d)).trans (ha_q_norm x0 x5 x6 b n d)

end Cert.ReferenceIdeal.RefValue

end
-- ==== Proof.RefValue.lean ====
/-
  The reference's value at an index is the specification's quotient / one-sum reading: the scores are the contraction of the
  normalised query and key rows divided by 16; the weights a softmax along the FIRST axis (the 64 entries b at fixed n, m),
  its maximum the host's max-reduce from −∞ — a fold of max over the axis's coordinates, which a further maximum with −∞
  leaves as it is —, its denominator the host's sum over that axis; the result the contraction of the weights with the
  normalised value rows over the 512 keys.
-/
import proofs.«102405_j6794638262727_1_alg».proof.Proof.RefValue1
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

/-- A normalised projection of x on the buffers' coordinates. -/
abbrev ha_arr (x0 : (⟨S64x512x256, .f32⟩ : BufTy).Contents (Elt Ideal)) (W : (⟨S256x256, .f32⟩ : BufTy).Contents (Elt Ideal))
    (bias : (⟨S256, .f32⟩ : BufTy).Contents (Elt Ideal)) : Cert.Attn.Arr3 :=
  Cert.Attn.qkvDiv (fun b n e => x0 (ix3 b n e)) (fun d e => W (ix2 d e)) (fun d => bias (ix1 d))

/-- The column of 64 scores at (n, m). -/
abbrev ha_col (x0 : (⟨S64x512x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal)) (n m : Fin 512) : Fin 64 → EReal :=
  fun b' => Cert.Attn.scoreDiv (ha_arr x0 x1 x2) (ha_arr x0 x3 x4) b' n m

/-! ### The scores: operations 66 to 68 -/

theorem ha_score (x0 : (⟨S64x512x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal)) (b : Fin 64) (n m : Fin 512) :
    val_main_v68 (F := Ideal) x0 x1 x2 x3 x4 (ix3 b n m) = Cert.Attn.scoreDiv (ha_arr x0 x1 x2) (ha_arr x0 x3 x4) b n m := by
  rw [val_main_v68_apply, val_main_v66_apply, val_main_v67_apply, val_main_cst_14_apply]
  simp only [Ideal.hostDivf_def, Ideal.ofBits_def]
  unfold Cert.Attn.scoreDiv Cert.Attn.dotQK
  refine congrArg (fun s => Ideal.div s Cert.Attn.w16) (Finset.sum_congr rfl fun k _ => ?_)
  refine congrArg₂ (· * ·) ?_ ?_
  · refine Eq.trans (congrArg (val_main_v21 (F := Ideal) x0 x1 x2) ?_) (ha_q_norm x0 x1 x2 b n k)
    exact funext fun a => Fin.ext (by match a with | ⟨0, _⟩ => rfl | ⟨1, _⟩ => rfl | ⟨2, _⟩ => rfl)
  · refine Eq.trans (congrArg (val_main_v43 (F := Ideal) x0 x3 x4) ?_) (ha_k_norm x0 x3 x4 b m k)
    exact funext fun a => Fin.ext (by match a with | ⟨0, _⟩ => rfl | ⟨1, _⟩ => rfl | ⟨2, _⟩ => rfl)

/-! ### The column maximum: operations 69 to 71 -/

/-- The reduced index (n, m) with the first coordinate k put back is (k, n, m). -/
theorem ha_lift (h : S64x512x512.Reduces [0] S512x512) (n m : Fin 512) (k : Fin (S64x512x512.size 0)) :
    h.lift (ix2 n m) k = ix3 (⟨k.val, k.isLt⟩ : Fin 64) n m := by
  funext c; apply Fin.ext
  fin_cases c <;> rfl

/-- The host's max-reduce over the first axis from −∞, at (n, m), is the fold of max over the column. -/
theorem ha_colmax (x : (⟨S64x512x512, .f32⟩ : BufTy).Contents (Elt Ideal)) (n m : Fin 512) :
    Host.reduce (FloatOps.maximumf (F := Ideal) (φ := .f32)) x (val_main_cst_15 (F := Ideal)) reducesTo_S64x512x512_S512x512_d0 h_S_ (ix2 n m)
      = Cert.Attn.colMax (fun b' => x (ix3 b' n m)) := by
  have h : S64x512x512.Reduces [0] S512x512 := by decide
  rw [Host.reduce_eq_fold_single (FloatOps.maximumf (F := Ideal) (φ := .f32)) x _ reducesTo_S64x512x512_S512x512_d0 h h_S_]
  unfold Cert.Attn.colMax
  have hf : (x ∘ h.lift (ix2 n m)) = fun k : Fin 64 => x (ix3 k n m) := funext fun k => congrArg x (ha_lift h n m k)
  exact congrArg (fun f => Finset.fold max (Ideal.ofBits .f32 0xFF800000#32) f (Finset.univ : Finset (Fin 64))) hf

theorem ha_max (x0 : (⟨S64x512x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal)) (n m : Fin 512) :
    val_main_v71 (F := Ideal) x0 x1 x2 x3 x4 (ix2 n m) = Cert.Attn.colMax (ha_col x0 x1 x2 x3 x4 n m) := by
  rw [val_main_v71_apply, val_main_v70_apply, val_main_cst_16_apply]
  unfold val_main_v69
  rw [ha_colmax]
  simp only [Ideal.maximumf_def, Ideal.ofBits_def]
  have e : (fun b' => val_main_v68 (F := Ideal) x0 x1 x2 x3 x4 (ix3 b' n m)) = ha_col x0 x1 x2 x3 x4 n m :=
    funext fun b' => ha_score x0 x1 x2 x3 x4 b' n m
  rw [e]
  exact max_eq_right ((Finset.le_fold_max _).2 (Or.inl le_rfl))

/-! ### The weights: operations 72 to 79 -/

theorem ha_exp (x0 : (⟨S64x512x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal)) (b : Fin 64) (n m : Fin 512) :
    val_main_v75 (F := Ideal) x0 x1 x2 x3 x4 (ix3 b n m)
      = Ideal.exp (Cert.Attn.scoreDiv (ha_arr x0 x1 x2) (ha_arr x0 x3 x4) b n m - Cert.Attn.colMax (ha_col x0 x1 x2 x3 x4 n m)) := by
  rw [val_main_v75_apply, val_main_v74_apply, val_main_v73_apply, val_main_v72_apply, ha_score]
  simp only [Ideal.hostUnary_exp_def, Ideal.subf_def]
  have e : idx_main_v72 (idx_main_v73 (ix3 b n m)) = ix2 n m := funext fun a => Fin.ext (by match a with | ⟨0, _⟩ => rfl | ⟨1, _⟩ => rfl)
  rw [e, ha_max]

theorem ha_den (x0 : (⟨S64x512x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal)) (n m : Fin 512) :
    val_main_v76 (F := Ideal) x0 x1 x2 x3 x4 (ix2 n m)
      = ∑ b' : Fin 64, Ideal.exp (ha_col x0 x1 x2 x3 x4 n m b' - Cert.Attn.colMax (ha_col x0 x1 x2 x3 x4 n m)) := by
  rw [val_main_v76_apply, val_main_cst_17_apply]
  simp only [Ideal.ofBits_def]
  rw [Ideal.ofBits_zero_f32, zero_add]
  refine Finset.sum_congr rfl fun k _ => ?_
  refine Eq.trans (congrArg (val_main_v75 (F := Ideal) x0 x1 x2 x3 x4) ?_) (ha_exp x0 x1 x2 x3 x4 k n m)
  exact funext fun a => Fin.ext (by match a with | ⟨0, _⟩ => rfl | ⟨1, _⟩ => rfl | ⟨2, _⟩ => rfl)

theorem ha_weight (x0 : (⟨S64x512x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal)) (b : Fin 64) (n m : Fin 512) :
    val_main_v79 (F := Ideal) x0 x1 x2 x3 x4 (ix3 b n m) = Cert.Attn.weight (ha_col x0 x1 x2 x3 x4 n m) b := by
  rw [val_main_v79_apply, val_main_v78_apply, val_main_v77_apply, ha_exp]
  simp only [Ideal.hostDivf_def]
  have e : idx_main_v77 (idx_main_v78 (ix3 b n m)) = ix2 n m := funext fun a => Fin.ext (by match a with | ⟨0, _⟩ => rfl | ⟨1, _⟩ => rfl)
  rw [e, ha_den]
  rfl

/-! ### The result: operation 80 -/

theorem ref_eq (x0 : (⟨S64x512x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (b : Fin 64) (n : Fin 512) (e : Fin 256) :
    Cert.ReferenceIdeal.Read.val_main_v80 (F := Ideal) x0 x1 x2 x3 x4 x5 x6 (ix3 b n e)
      = Cert.Attn.resultWhole (fun b n e => x0 (ix3 b n e)) (fun d e => x1 (ix2 d e)) (fun d => x2 (ix1 d))
          (fun d e => x3 (ix2 d e)) (fun d => x4 (ix1 d)) (fun d e => x5 (ix2 d e)) (fun d => x6 (ix1 d)) b n e := by
  rw [val_main_v80_apply]
  unfold Cert.Attn.resultWhole Cert.Attn.outWhole
  refine Finset.sum_congr rfl fun k _ => ?_
  refine congrArg₂ (· * ·) ?_ ?_
  · refine Eq.trans (congrArg (val_main_v79 (F := Ideal) x0 x1 x2 x3 x4) ?_) (ha_weight x0 x1 x2 x3 x4 b n k)
    exact funext fun a => Fin.ext (by match a with | ⟨0, _⟩ => rfl | ⟨1, _⟩ => rfl | ⟨2, _⟩ => rfl)
  · refine Eq.trans (congrArg (val_main_v65 (F := Ideal) x0 x5 x6) ?_) (ha_v_norm x0 x5 x6 b k e)
    exact funext fun a => Fin.ext (by match a with | ⟨0, _⟩ => rfl | ⟨1, _⟩ => rfl | ⟨2, _⟩ => rfl)

end Cert.ReferenceIdeal.RefValue

end
-- ==== Proof.Alg.lean ====
/-
  The algebra between the two readings of the specification, on the extended reals and with no finiteness
  hypothesis. Three facts carry it:

  * normalisation: variance plus ε is strictly positive (a sum of squares is ≥ 0, so is its quotient by 256, and ε is
    a positive real), so it is a positive real or +∞; at either, the product with the reciprocal root equals the
    quotient by the root (at +∞ both are a product with 0);
  * scores: a product with the real 1/16 is the quotient by the real 16, at the infinities too;
  * keys: key 128·j + r runs over all 512 keys exactly once as (j, r) runs over 4 × 128, so the one sum is the sum of
    the four tiles (addition of extended reals is commutative and associative).
-/
import proofs.«102405_j6794638262727_1_alg».proof.Proof.Spec

noncomputable section

namespace Cert.Attn

open Idealize.ShloMosaic
open scoped BigOperators

/-! ### The four float words as extended reals -/

/-- The word 0x43800000 (exponent field 135, fraction 0) denotes 2^8 = 256. -/
theorem hb_w256 : w256 = ((256 : ℝ) : EReal) := by
  simp [Ideal.ofBits, Ideal.ieee, -EReal.coe_mul]; norm_num

/-- The word 0x41800000 (exponent field 131, fraction 0) denotes 2^4 = 16. -/
theorem hb_w16 : w16 = ((16 : ℝ) : EReal) := by
  simp [Ideal.ofBits, Ideal.ieee, -EReal.coe_mul]; norm_num

/-- The word 0x3D800000 (exponent field 123, fraction 0) denotes 2^(-4) = 1/16. -/
theorem hb_wSixteenth : wSixteenth = ((1 / 16 : ℝ) : EReal) := by
  simp [Ideal.ofBits, Ideal.ieee, -EReal.coe_mul]; norm_num

/-- The word 0x3727C5AC (exponent field 110, fraction 2606508) denotes the positive real
    (2^23 + 2606508) · 2^(110 − 127 − 23) = 10995116 · 2^(-40). -/
theorem hb_wEps : ∃ r : ℝ, 0 < r ∧ wEps = (r : EReal) := by
  refine ⟨(10995116 : ℝ) * (2 : ℝ) ^ (-40 : Int), by positivity, ?_⟩
  simp [Ideal.ofBits, Ideal.ieee, -EReal.coe_mul]

/-! ### Variance plus ε is positive -/

/-- A square of an extended real is nonnegative: real squares are, and both infinities square to +∞. -/
theorem hb_mul_self_nonneg (y : EReal) : 0 ≤ y * y := by
  induction y using EReal.rec with
  | bot => rw [EReal.bot_mul_bot]; exact le_top
  | coe r => rw [← EReal.coe_mul]; exact EReal.coe_nonneg.mpr (mul_self_nonneg r)
  | top => rw [EReal.top_mul_top]; exact le_top

/-- The quotient of a nonnegative extended real by 256 is nonnegative: it is a product with the real 1/256. -/
theorem hb_div256_nonneg (s : EReal) (hs : 0 ≤ s) : 0 ≤ Ideal.div s w256 := by
  rw [hb_w256, Ideal.div_coe (by norm_num : (256 : ℝ) ≠ 0)]
  exact mul_nonneg hs (EReal.coe_nonneg.mpr (by norm_num))

/-- The variance of any row is nonnegative. -/
theorem hb_rowVar_nonneg (v : Fin 256 → EReal) : 0 ≤ rowVar v :=
  hb_div256_nonneg _ (Finset.sum_nonneg fun d _ => hb_mul_self_nonneg _)

/-- A nonnegative extended real plus a positive real is positive. -/
theorem hb_pos_add (a : EReal) (ha : 0 ≤ a) (r : ℝ) (hr : 0 < r) : 0 < a + (r : EReal) := by
  have h1 : (0 : EReal) + (r : EReal) ≤ a + (r : EReal) := add_le_add ha le_rfl
  rw [zero_add] at h1
  exact lt_of_lt_of_le (EReal.coe_pos.mpr hr) h1

/-- Variance plus ε is positive, for every row. -/
theorem hb_rowVar_add_eps_pos (v : Fin 256 → EReal) : 0 < rowVar v + wEps := by
  obtain ⟨r, hr, he⟩ := hb_wEps
  rw [he]
  exact hb_pos_add _ (hb_rowVar_nonneg v) r hr

/-! ### Normalisation: product with the reciprocal root = quotient by the root -/

/-- At a positive argument a (a positive real, or +∞) the product with the reciprocal root of a is the quotient by
    the root of a: for a real r > 0 both are the product with (√r)⁻¹, and at +∞ both are the product with 0. -/
theorem hb_mul_rsqrt_eq_div_sqrt (y a : EReal) (ha : 0 < a) : y * Ideal.rsqrt a = Ideal.div y (Ideal.sqrt a) := by
  induction a using EReal.rec with
  | bot => exact absurd ha (not_lt.mpr bot_le)
  | top =>
    rw [Ideal.rsqrt_top, Ideal.sqrt_top, Ideal.div, if_neg EReal.top_ne_zero, EReal.inv_top]
  | coe r =>
    have hr : 0 < r := EReal.coe_pos.mp ha
    have hs : Real.sqrt r ≠ 0 := (Real.sqrt_pos.mpr hr).ne'
    rw [Ideal.rsqrt_coe, Ideal.sqrt_coe, if_neg (not_lt.mpr hr.le), if_neg (not_lt.mpr hr.le), if_neg hr.ne',
      Ideal.div_coe hs, one_div]

/-- The two normalisations agree on every row of extended reals. -/
theorem hb_normMul_eq_normDiv (v : Fin 256 → EReal) : normMul v = normDiv v :=
  funext fun d => hb_mul_rsqrt_eq_div_sqrt (v d - rowMean v) (rowVar v + wEps) (hb_rowVar_add_eps_pos v)

/-- So do the two normalised projections. -/
theorem hb_qkvMul_eq_qkvDiv (x : Arr3) (W : Fin 256 → Fin 256 → EReal) (bias : Fin 256 → EReal) :
    qkvMul x W bias = qkvDiv x W bias :=
  funext fun b => funext fun n => hb_normMul_eq_normDiv (proj (x b n) W bias)

/-! ### Scores: product with 1/16 = quotient by 16 -/

theorem hb_mul_sixteenth (y : EReal) : y * wSixteenth = Ideal.div y w16 := by
  rw [hb_w16, hb_wSixteenth, Ideal.div_coe (by norm_num : (16 : ℝ) ≠ 0)]

theorem hb_scoreMul_eq_scoreDiv (Q K : Arr3) : scoreMul Q K = scoreDiv Q K :=
  funext fun b => funext fun n => funext fun m => hb_mul_sixteenth (dotQK Q K b n m)

/-! ### The keys regrouped -/

/-- A sum over the 512 keys is the sum over the four tiles of the sums over each tile's 128 keys: (j, r) ↦ 128·j + r
    is a bijection from 4 × 128 onto 512. -/
theorem hb_sum_keys (f : Fin 512 → EReal) : ∑ m : Fin 512, f m = ∑ j : Fin 4, ∑ r : Fin 128, f (keyOf j r) := by
  rw [← Fintype.sum_prod_type' (fun j r => f (keyOf j r))]
  refine (Equiv.sum_comp (finProdFinEquiv : Fin 4 × Fin 128 ≃ Fin 512) f).symm.trans ?_
  refine Finset.sum_congr rfl fun x _ => congrArg f (Fin.ext ?_)
  show x.2.val + 128 * x.1.val = 128 * x.1.val + x.2.val
  omega

/-- The tiled result with product-scaled scores is the one-sum result with quotient-scaled scores. -/
theorem hb_outTiled_eq_outWhole (Q K V : Arr3) : outTiled Q K V = outWhole Q K V := by
  funext b n e
  unfold outTiled tileTerm outWhole
  rw [hb_scoreMul_eq_scoreDiv Q K]
  exact (hb_sum_keys fun m => weight (fun b' => scoreDiv Q K b' n m) b * V b m e).symm

/-! ### The two readings of the result agree -/

theorem resultTiled_eq_resultWhole (x : Arr3) (Wq : Fin 256 → Fin 256 → EReal) (bq : Fin 256 → EReal) (Wk : Fin 256 → Fin 256 → EReal) (bk : Fin 256 → EReal)
    (Wv : Fin 256 → Fin 256 → EReal) (bv : Fin 256 → EReal) :
    resultTiled x Wq bq Wk bk Wv bv = resultWhole x Wq bq Wk bk Wv bv := by
  unfold resultTiled resultWhole
  rw [hb_qkvMul_eq_qkvDiv x Wq bq, hb_qkvMul_eq_qkvDiv x Wk bk, hb_qkvMul_eq_qkvDiv x Wv bv]
  exact hb_outTiled_eq_outWhole _ _ _

end Cert.Attn

end
-- ==== Proof.lean ====
/-
  The kernel: three normalised projections of x (64 × 512 × 256) — queries, keys, values, each row of
  x · Wᵀ + bias brought to mean 0 and scaled by the reciprocal root of its variance + ε — computed by a first
  pipelined region on 2048-row blocks of x reshaped to 32768 × 256; then, in a second region over 8 × 4 grid
  points, for each block of 64 queries and each tile of 128 keys the scores (Q · Kᵀ) · 1/16, a softmax ALONG THE
  BATCH AXIS (the 64 batch entries at a fixed query and key: all present in every tile, so each tile's weights are
  final), and the weights' product with the values, accumulated over the four key tiles in a scratch block that
  is zeroed at the first tile and copied to the output block at every tile.
  The reference: the same projections normalised by a quotient by the root, the scores divided by 16, the softmax
  along the batch axis, one contraction over all 512 keys.
  On the extended reals the two are one function of the arguments: a row's variance + ε is at least ε > 0 whatever
  the row (a square is never negative, ±∞ included), so the product with the reciprocal root is the quotient by the
  root; a product with the real 1/16 is the quotient by the real 16; and a sum over 512 keys is the sum of its four
  tiles of 128. No finiteness of the inputs is used.
  The frames of the two kernel programs are runs over @main's four segments (host operations, region, host
  operations, region), the second region's invariant naming the scratch block's contents from point to point; the
  reference's frame is its run with the result dropped; nothing was rewritten between the word-level and the exact
  program.
-/
import proofs.«102405_j6794638262727_1_alg».proof.Defs
import proofs.«102405_j6794638262727_1_alg».proof.Proof.Gen.Kernel
import proofs.«102405_j6794638262727_1_alg».proof.Proof.Gen.KernelIdeal
import proofs.«102405_j6794638262727_1_alg».proof.Proof.Gen.ReferenceIdeal
import proofs.«102405_j6794638262727_1_alg».proof.Proof.Gen.Pre_finite_inputs
import proofs.«102405_j6794638262727_1_alg».proof.Proof.Gen.ReferenceIdeal.Run
import proofs.«102405_j6794638262727_1_alg».proof.Proof.Gen.ReferenceIdeal.Read
import proofs.«102405_j6794638262727_1_alg».proof.Proof.Run
import proofs.«102405_j6794638262727_1_alg».proof.Proof.KRun
import proofs.«102405_j6794638262727_1_alg».proof.Proof.Final
import proofs.«102405_j6794638262727_1_alg».proof.Proof.RefValue
import proofs.«102405_j6794638262727_1_alg».proof.Proof.Alg
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs to the end and leaves its arguments unchanged. -/
theorem frame_k : Cert.frame_Kernel := fun m ρ _ => Cert.Kernel.Hand.frame m ρ

/-- The exact-instance program runs to the end and leaves its arguments unchanged. -/
theorem frame_ki : Cert.frame_KernelIdeal := fun m ρ _ => Cert.KernelIdeal.Hand.frame m ρ

/-- The reference runs to the end and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact-instance program is the word-level program's text read at the exact instance: nothing was rewritten. -/
theorem preserves : Cert.preserves_Kernel_KernelIdeal := trivial

/-- At the exact instance, from memories agreeing on the arguments, the kernel's result array and the reference's are
    one array: index by index the kernel's is the tiled reading of the arguments (products with 1/16 and with the
    reciprocal root, the keys in four tiles), the reference's the whole reading (quotients, one sum over the keys), and
    the two readings are equal on the extended reals. -/
theorem algebraic : Cert.algebraic_KernelIdeal_ReferenceIdeal := by
  intro m ρ m' ρ' _ hagree
  refine ⟨fun c => (Cert.KernelIdeal.Hand.dat1 (F := Ideal) (Cert.KernelIdeal.Hand.V3 m) c).arrAt 3 Cert.KernelIdeal.cfg1.N, Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v80_eq, (hagree c).1, (hagree c).2.1, (hagree c).2.2.1, (hagree c).2.2.2.1,
    (hagree c).2.2.2.2.1, (hagree c).2.2.2.2.2.1, (hagree c).2.2.2.2.2.2]
  funext i
  obtain ⟨b, n, e, rfl⟩ : ∃ (b : Fin 64) (n : Fin 512) (e : Fin 256), i = ix3 b n e := ⟨i 0, i 1, i 2, eq_ix3 i⟩
  refine (Cert.ReferenceIdeal.RefValue.ref_eq _ _ _ _ _ _ _ b n e).trans ?_
  rw [← Cert.Attn.resultTiled_eq_resultWhole]
  exact (Cert.KernelIdeal.Hand.kernel_value m c b n e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
